-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x1024 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Kernel.lean ====
abbrev S8192x512 : Shape := ⟨2, ![8192, 512]⟩
abbrev S8192x1024 : Shape := ⟨2, ![8192, 1024]⟩
abbrev S8192 : Shape := ⟨1, ![8192]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512, .f32⟩
  | .local _ .vmem, ⟨11, _⟩ => ⟨S512, .f32⟩
  | .local _ .vmem, ⟨12, _⟩ => ⟨S512x1, .f32⟩
  | .local _ .vmem, ⟨13, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  transposes_S512x512_p1_0_S512x512 : S512x512.Transposes [1, 0] S512x512
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  iota_S512x512_d0_w32 : S512x512.Iotas .tc 32 [0]
  iota_S512x512_d1_w32 : S512x512.Iotas .tc 32 [1]
  shapeCasts_S512x1_S512 : S512x1.ShapeCasts S512
  inb_S512_S512_0 : ∀ a, (![0] : Fin 1 → Nat) a + S512.size a ≤ S512.size a
  h_S512 : 0 < S512.numel
  reducesTo_S8192_S_d0 : S8192.ReducesTo [0] S_
  h_S_ : 0 < S_.numel
  dot_S512x512_S512x512_S512x512_1_0_0_1_n_n_wf : DotDims.WF S512x512 S512x512 S512x512 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x512.size a
  hwx0_4 : ∀ i : grid0.Coords, EltTy.bits .f32 = 32 ∨ (Rect.block (s := S8192x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S8192.size a
  hwx0_5 : ∀ i : grid0.Coords, EltTy.bits .f32 = 32 ∨ (Rect.block (s := S8192) S512.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x1024 : Shape := ⟨2, ![8192, 1024]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S1024x8192 : Shape := ⟨2, ![1024, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S512x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S1024x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .i1⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .i1⟩
  | .hbm, ⟨44, _⟩ => ⟨S8192x8192, .i1⟩
  | .hbm, ⟨45, _⟩ => ⟨S8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S_S8192 : S_.BroadcastsInDim S8192 (![] : Fin 0 → Fin S8192.rank)
  transposes_S8192x512_S512x8192_1_0 : S8192x512.Transposes [1, 0] S512x8192
  bcast_S_S8192x8192 : S_.BroadcastsInDim S8192x8192 (![] : Fin 0 → Fin S8192x8192.rank)
  transposes_S8192x1024_S1024x8192_1_0 : S8192x1024.Transposes [1, 0] S1024x8192
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []
  dot_S8192x1024_S1024x8192_S8192x8192_1_0_0_1_n_n_wf : DotDims.WF S8192x1024 S1024x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KB.Base.lean ====
/-
  The contrastive-loss kernel visits a 16 × 16 grid of points (i, j), j fastest. Row block i of the features, of the
  labels and of the noise stays staged while j runs; column block j of the features and of the labels is fetched at every
  point. Two 512 × 1 scratch columns are carried from point to point: the first holds exp(cos / T) of each row of block i
  against its noised copy, written when j = 0; the second the running sum over the column blocks seen so far of the masked
  exp(⟨z_r, z_c⟩ / T), reset when j = 0. When j = 15 the output block i receives −log(num / (num + neg)).
  This module fixes what every later module is stated over: the arrays as the region finds them, a window's block at a
  point, the two branch conditions as congruences of the point's number, where the output window rests, and the names of
  the staging and scratch memrefs.
-/
import proofs.«153545_j16973710754120_1_alg».proof.Proof.Gen.Kernel.Launch
import proofs.«153545_j16973710754120_1_alg».proof.Proof.Gen.Kernel.Skeleton
import proofs.«153545_j16973710754120_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Nothing runs on the host before the region: the arrays are the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- Window `w`'s block at point `t`: 512 consecutive rows of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches -/

/-- `j = 0`: the numerator is computed and the running sum reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- `j = 15`: the loss of row block `i` is written. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows rest -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output rests wherever `j ≠ 15`, and is not written back there. -/
theorem rest5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)
/-- The numerator column and the running-sum column. -/
abbrev numM : Memref sig .tc .vmem S512x1 .f32 := Memref.whole cc0_scratch0
abbrev negM : Memref sig .tc .vmem S512x1 .f32 := Memref.whole cc0_scratch1
abbrev numV : View sig .tc .vmem S512x1 .f32 := numM.view
abbrev negV : View sig .tc .vmem S512x1 .f32 := negM.view
abbrev outV : View sig .tc .vmem S512 .f32 := (Memref.whole cc0_stg5_0 : Memref sig .tc .vmem S512 .f32).view

/-- What the region owns beside its windows: the two scratch columns at some contents and the generator register. -/
theorem PhiA_eq (c : Dev nD) :
    (Pipeline.ΦA spec0 c : sProp 𝕄)
      = iprop(iprop((∃ d, owns (c : Thread nD τ) numM fullShare d) ∗ (∃ d, owns (c : Thread nD τ) negM fullShare d)) ∗ (∃ r, prngReg c r)) := by
  unfold Pipeline.ΦA; rw [scopedRest0_eq]; simp only [numM, negM, owns_whole]; try rfl

end Cert.Kernel.Hand

end
-- ==== Proof.KB.RunFirst.lean ====
/-
  A point with j = 0. The body first writes the numerator column — exp of the cosine of each row of block i with its noised
  copy, over the temperature — and zeroes the running-sum column; then, as at every point, it adds this tile's row sums.
  The output rests.
-/
import proofs.«153545_j16973710754120_1_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs when `j = 0`: both scratch columns, whatever they held, come back with the pieces the run
    finds written; inputs and the resting output as they were. -/
noncomputable def runFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i)
    (x0 x1 : Vec F S512x512 .f32) (x2 x3 : Vec F S512x1024 .f32) (x4 : Vec F S512x512 .f32) :
    Σ' (LS0 : List (View.Piece (Elt F) S512x1 .f32)), { LS1 : List (View.Piece (Elt F) S512x1 .f32) //
      ∀ (xi5 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun xi5 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Hand

end
-- ==== Proof.KB.RunMid.lean ====
/-
  A point with 0 < j < 15: neither branch runs. The body reads the four label and feature blocks, adds this tile's row
  sums of the masked exponentials to the running-sum column, and touches neither the numerator column nor the output.
-/
import proofs.«153545_j16973710754120_1_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs, neither branch taken: the inputs, the resting output and the numerator column come back as
    they were; the running-sum column comes back with the pieces the run finds written into it. -/
noncomputable def runMid (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i)
    (x0 x1 : Vec F S512x512 .f32) (x2 x3 : Vec F S512x1024 .f32) (x4 : Vec F S512x512 .f32) (xs0 xs1 : Vec F S512x1 .f32) :
    { LS1 : List (View.Piece (Elt F) S512x1 .f32) //
      ∀ (xi5 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, fun xi5 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.Kernel.Hand

end
-- ==== Proof.KB.RunLast.lean ====
/-
  A point with j = 15. The body adds the last tile's row sums to the running-sum column and then writes the loss of each
  row of block i, −log(num / (num + neg)), into the output block. The numerator column is only read.
-/
import proofs.«153545_j16973710754120_1_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs when `j = 15`: the output block and the running-sum column come back with the pieces the run
    finds written; inputs and the numerator column as they were. -/
noncomputable def runLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i)
    (x0 x1 : Vec F S512x512 .f32) (x2 x3 : Vec F S512x1024 .f32) (x4 : Vec F S512x512 .f32) (xs0 xs1 : Vec F S512x1 .f32) :
    Σ' (L5 : List (View.Piece (Elt F) S512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; isplitr; · ipureintro; exact harg8.read_unread _
      iexact HS0
    iexists _; iexact HS1

end Cert.Kernel.Hand

end
-- ==== Proof.KB.Track.lean ====
/-
  What the two scratch columns and the output block hold after each point, by recursion on the point's number n = 16 i + j.
  After a point with j = 0 the numerator column is that point's fresh value and the running sum its first tile's row sums;
  after any other point the numerator is what the point before left and the running sum what it left plus this tile's row
  sums; after a point with j = 15 the output block is the loss computed from the two columns. Elsewhere the output block
  rests, and what is recorded for it there is never consulted. From these the proof data of the region is assembled and
  the body is shown to take the data at a point to the data at the next.
-/
import proofs.«153545_j16973710754120_1_alg».proof.Proof.KB.RunFirst
import proofs.«153545_j16973710754120_1_alg».proof.Proof.KB.RunMid
import proofs.«153545_j16973710754120_1_alg».proof.Proof.KB.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the pieces its run finds -/

def numOfFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) : Vec F S512x1 .f32 :=
  numV.read (Elt F) (numV.writes (Elt F) numV.junk (runFirst c i arg2 harg2 arg3 harg3 arg4 harg4 arg5 harg5 arg6 harg6 arg7 harg7 arg8 harg8 arg9 harg9 hc0 hc1 x0 x1 x2 x3 x4).1)
def negOfFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) : Vec F S512x1 .f32 :=
  negV.read (Elt F) (negV.writes (Elt F) negV.junk (runFirst c i arg2 harg2 arg3 harg3 arg4 harg4 arg5 harg5 arg6 harg6 arg7 harg7 arg8 harg8 arg9 harg9 hc0 hc1 x0 x1 x2 x3 x4).2.1)
/-- Each column is stored whole: the pieces cover it. -/
theorem numOfFirst_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) (y : S512x1.Idx) :
    ∃ pc ∈ (runFirst c i arg2 harg2 arg3 harg3 arg4 harg4 arg5 harg5 arg6 harg6 arg7 harg7 arg8 harg8 arg9 harg9 hc0 hc1 x0 x1 x2 x3 x4).1, y ∈ pc.1.set :=
  View.cover_of_tiledL (runFirst c i arg2 harg2 arg3 harg3 arg4 harg4 arg5 harg5 arg6 harg6 arg7 harg7 arg8 harg8 arg9 harg9 hc0 hc1 x0 x1 x2 x3 x4).1 S512x1.size (by sl_kernel_rfl) y
theorem negOfFirst_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) (y : S512x1.Idx) :
    ∃ pc ∈ (runFirst c i arg2 harg2 arg3 harg3 arg4 harg4 arg5 harg5 arg6 harg6 arg7 harg7 arg8 harg8 arg9 harg9 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 hc0 hc1 x0 x1 x2 x3 x4).2.1 S512x1.size (by sl_kernel_rfl) y

def negOfMid (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i) (x0 x1 : Vec F S512x512 .f32) (x2 x3 : Vec F S512x1024 .f32) (x4 : Vec F S512x512 .f32) (xs0 xs1 : Vec F S512x1 .f32) : Vec F S512x1 .f32 :=
  negV.read (Elt F) (negV.writes (Elt F) negV.junk (runMid c i arg2 harg2 arg3 harg3 arg4 harg4 arg5 harg5 arg6 harg6 arg7 harg7 arg8 harg8 arg9 harg9 hc0 hc1 x0 x1 x2 x3 x4 xs0 xs1).1)
theorem negOfMid_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i) (x0 x1 : Vec F S512x512 .f32) (x2 x3 : Vec F S512x1024 .f32) (x4 : Vec F S512x512 .f32) (xs0 xs1 : Vec F S512x1 .f32) (y : S512x1.Idx) :
    ∃ pc ∈ (runMid c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (runMid c i arg2 harg2 arg3 harg3 arg4 harg4 arg5 harg5 arg6 harg6 arg7 harg7 arg8 harg8 arg9 harg9 hc0 hc1 x0 x1 x2 x3 x4 xs0 xs1).1 S512x1.size (by sl_kernel_rfl) y

def outOfLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) : Vec F S512 .f32 :=
  outV.read (Elt F) (outV.writes (Elt F) outV.junk (runLast c i arg2 harg2 arg3 harg3 arg4 harg4 arg5 harg5 arg6 harg6 arg7 harg7 arg8 harg8 arg9 harg9 hc0 hc1 x0 x1 x2 x3 x4 xs0 xs1).1)
def negOfLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) : Vec F S512x1 .f32 :=
  negV.read (Elt F) (negV.writes (Elt F) negV.junk (runLast c i arg2 harg2 arg3 harg3 arg4 harg4 arg5 harg5 arg6 harg6 arg7 harg7 arg8 harg8 arg9 harg9 hc0 hc1 x0 x1 x2 x3 x4 xs0 xs1).2.1)
theorem outOfLast_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) (y : S512.Idx) :
    ∃ pc ∈ (runLast c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (runLast c i arg2 harg2 arg3 harg3 arg4 harg4 arg5 harg5 arg6 harg6 arg7 harg7 arg8 harg8 arg9 harg9 hc0 hc1 x0 x1 x2 x3 x4 xs0 xs1).1 S512.size (by sl_kernel_rfl) y
theorem negOfLast_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) (y : S512x1.Idx) :
    ∃ pc ∈ (runLast c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (runLast c i arg2 harg2 arg3 harg3 arg4 harg4 arg5 harg5 arg6 harg6 arg7 harg7 arg8 harg8 arg9 harg9 hc0 hc1 x0 x1 x2 x3 x4 xs0 xs1).2.1 S512x1.size (by sl_kernel_rfl) y

/-- What is recorded for the output block where it rests: never consulted. -/
def restOut : Vec F S512 .f32 := outV.read (Elt F) (outV.writes (Elt F) outV.junk [])

/-! ## The tracked contents, point by point -/

/-- After point `n`: the output block, the numerator column, the running-sum column. -/
def trk (c : Dev nD) : (n : ℕ) → n < cfg0.N → Vec F S512 .f32 × Vec F S512x1 .f32 × Vec F S512x1 .f32
  | 0, hn =>
    (restOut,
     numOfFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) numM (Memref.isWhole_whole _) negM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩),
     negOfFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) numM (Memref.isWhole_whole _) negM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then
        False.elim (by omega)
      else
        (restOut,
         numOfFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩),
         negOfFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (outOfLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (trk c n (Nat.lt_of_succ_lt hn)).2.1 (trk c n (Nat.lt_of_succ_lt hn)).2.2,
         (trk c n (Nat.lt_of_succ_lt hn)).2.1,
         negOfLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (trk c n (Nat.lt_of_succ_lt hn)).2.1 (trk c n (Nat.lt_of_succ_lt hn)).2.2)
      else
        (restOut,
         (trk c n (Nat.lt_of_succ_lt hn)).2.1,
         negOfMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (trk c n (Nat.lt_of_succ_lt hn)).2.1 (trk c n (Nat.lt_of_succ_lt hn)).2.2)

end Cert.Kernel.Hand

end
-- ==== Proof.KB.Data.lean ====
/-
  The proof data of the region. The arrays are the launch contents; the features array and the labels array are each read
  through two windows (row block i and column block j), so each of those windows holds half of its array; after the body
  every input's staging buffer still holds its block, and the output's holds the tracked block. The invariant between points
  is the two scratch columns at their tracked contents.
-/
import proofs.«153545_j16973710754120_1_alg».proof.Proof.KB.Track

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tracked contents at a point of each kind -/

theorem trk_first (c : Dev nD) (t : Fin cfg0.N) (h0 : t.val % 16 = 0) (h1 : ¬t.val % 16 = 15) :
    trk m c t.val t.isLt = (restOut,
      numOfFirst c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) ((isFirst_iff t).mpr h0) (fun h => h1 ((isLast_iff t).mp h)) (iblk m c 0 t) (iblk m c 1 t) (iblk m c 2 t) (iblk m c 3 t) (iblk m c 4 t),
      negOfFirst c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) ((isFirst_iff t).mpr h0) (fun h => h1 ((isLast_iff t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem trk_mid (c : Dev nD) (t : Fin cfg0.N) (h0 : ¬t.val % 16 = 0) (h1 : ¬t.val % 16 = 15) :
    trk m c t.val t.isLt = (restOut,
      (trk m c (t.val - 1) (Nat.lt_of_le_of_lt (Nat.sub_le _ _) t.isLt)).2.1,
      negOfMid c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) (fun h => h1 ((isLast_iff t).mp h)) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem trk_last (c : Dev nD) (t : Fin cfg0.N) (h0 : ¬t.val % 16 = 0) (h1 : t.val % 16 = 15) :
    trk m c t.val t.isLt = (outOfLast c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2,
      (trk m c (t.val - 1) (Nat.lt_of_le_of_lt (Nat.sub_le _ _) t.isLt)).2.1,
      negOfLast c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the scratch columns hold anything; before point `n + 1` they hold what point `n` left. -/
def PhiS (c : Dev nD) : (n : ℕ) → n ≤ cfg0.N → sProp 𝕄
  | 0, _ => Pipeline.ΦA spec0 c
  | n + 1, hn => iprop(iprop(owns (c : Thread nD τ) numM fullShare ((trk m c n hn).2.1) ∗ owns (c : Thread nD τ) negM fullShare ((trk m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) numM fullShare ((trk m c n hn).2.1) ∗ owns (c : Thread nD τ) negM fullShare ((trk m c n hn).2.2)) ∗ (∃ r, prngReg c r)) := rfl
theorem PhiS_pos (c : Dev nD) (n : ℕ) (h : n ≤ cfg0.N) (hz : n ≠ 0) :
    PhiS m c n h = iprop(iprop(owns (c : Thread nD τ) numM fullShare ((trk m c (n - 1) (by omega)).2.1) ∗ owns (c : Thread nD τ) negM fullShare ((trk m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (trk m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (trk m c t.val t.isLt).1 := by dsimp only [dats]

/-! ## Every input's staging buffer holds its block, fetched at the point or not -/

theorem before_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t := before_of0 m (dats m 0 c) (A_eq m c 0) (after0 m c) t d
theorem before1 (c : Dev nD) (t : Fin cfg0.N) (d) : (dats m 0 c).before 1 t d = iblk m c 1 t := before_of1 m (dats m 0 c) (A_eq m c 1) (after1 m c) t d
theorem before2 (c : Dev nD) (t : Fin cfg0.N) (d) : (dats m 0 c).before 2 t d = iblk m c 2 t := before_of2 m (dats m 0 c) (A_eq m c 2) (after2 m c) t d
theorem before3 (c : Dev nD) (t : Fin cfg0.N) (d) : (dats m 0 c).before 3 t d = iblk m c 3 t := before_of3 m (dats m 0 c) (A_eq m c 3) (after3 m c) t d
theorem before4 (c : Dev nD) (t : Fin cfg0.N) (d) : (dats m 0 c).before 4 t d = iblk m c 4 t := before_of4 m (dats m 0 c) (A_eq m c 4) (after4 m c) t d

end Cert.Kernel.Hand

end
-- ==== Proof.KB.Body.lean ====
/-
  The body at a generic point takes the proof data at the point to the data at the next. Which of the three cases the point
  is in is read off its number modulo 16; the case's run is handed the inputs' blocks, the output's buffer and the two
  scratch columns, and what it hands back is the tracked contents because the stores it found cover each buffer they write.
-/
import proofs.«153545_j16973710754120_1_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases h0 : t.val % 16 = 0
  · by_cases h1 : t.val % 16 = 15
    · exfalso; omega
    · rw [Dat.leavesExact_idle (dats m 0 c) 5 t (rest5 t (fun h => h1 ((isLast_iff t).mp h))) (noFlush5 t (fun h => h1 ((isLast_iff t).mp h)))]
      rw [trk_first m c t h0 h1]
      unfold numOfFirst negOfFirst; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (numOfFirst_cover c _ _ _ _ _ _ _ _ _ _ _ _ _ _ _ _ _ _ _ _ _ _ _ _)
            · unfold owns; iexists _; isplitr
              swap; · iexact HS1
              ipureintro; exact View.read_writes_of_cover _ _ _ _ _ (negOfFirst_cover c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (numOfFirst_cover c _ _ _ _ _ _ _ _ _ _ _ _ _ _ _ _ _ _ _ _ _ _ _ _)
            · unfold owns; iexists _; isplitr
              swap; · iexact HS1
              ipureintro; exact View.read_writes_of_cover _ _ _ _ _ (negOfFirst_cover c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · rw [show (dats m 0 c).leavesExact 5 t = owns (c : Thread nD τ) (ms5 t) fullShare ((dats m 0 c).after 5 t) from by
        unfold Dat.leavesExact; rw [live5 t ((isLast_iff t).mpr h1)], after5]
      rw [trk_last m c t h0 h1]
      unfold outOfLast negOfLast; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 Hg]
      · isplitl [HS0 HS1]
        · isplitl [HS0]; · iexact HS0
          · unfold owns; iexists _; isplitr
            swap; · iexact HS1
            ipureintro; exact View.read_writes_of_cover _ _ _ _ _ (negOfLast_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      · unfold owns; iexists _; isplitr
        swap; · iexact H5
        ipureintro; exact View.read_writes_of_cover _ _ _ _ _ (outOfLast_cover c _ _ _ _ _ _ _ _ _ _ _ _ _ _ _ _ _ _ _ _ _ _ _ _ _ _)
    · rw [Dat.leavesExact_idle (dats m 0 c) 5 t (rest5 t (fun h => h1 ((isLast_iff t).mp h))) (noFlush5 t (fun h => h1 ((isLast_iff t).mp h)))]
      rw [trk_mid m c t h0 h1]
      unfold negOfMid; (try dsimp only)
      have hz : t.val ≠ 0 := fun e => h0 (by rw [e])
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ (fun h => h0 ((isFirst_iff t).mp h)) (fun h => h1 ((isLast_iff t).mp h)) (iblk m c 0 t) (iblk m c 1 t) (iblk m c 2 t) (iblk m c 3 t) (iblk m c 4 t) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1 Hg]
      · isplitl [HS0 HS1]
        · isplitl [HS0]; · iexact HS0
          · unfold owns; iexists _; isplitr
            swap; · iexact HS1
            ipureintro; exact View.read_writes_of_cover _ _ _ _ _ (negOfMid_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back, the columns' contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.KB.Region.lean ====
/-
  The run of the whole program: the region, then the four host operations that average the loss vector. The features array
  and the labels array are each handed to two windows, so each window holds half of its array; the halves are never written,
  and after the region they still hold the launch contents. The host's sum and division then read only the loss vector.
-/
import proofs.«153545_j16973710754120_1_alg».proof.Proof.KB.Body
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor

/-- @main is the region continued by the four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The mean of a loss vector as the host computes it. -/
def meanOf (L : (⟨S8192, .f32⟩ : BufTy).Contents (Elt F)) : (⟨S_, .f32⟩ : BufTy).Contents (Elt F) :=
  Host.divf (Host.reduceAdd L (constant S_ .f32 0x00000000#32) reducesTo_S8192_S_d0 h_S_) (constant S_ .f32 0x46000000#32)

/-- The buffers when the region is left: the loss vector at what the write-backs made it, everything else as launched. -/
def Wx (c : Dev nD) : Valuation τ sig (Elt F) :=
  Function.update (V0 m c) (Proc.devRef .tc main_v0) ((dats m 0 c).arrAt 5 cfg0.N)
/-- And after the host operations. -/
def Wf (c : Dev nD) : Valuation τ sig (Elt F) := StableHlo.after hostOps1 (Wx m c)

/-- The four distinct arrays, each whole, make the six windows' arrays: the features and the labels are halved between
    their two windows. -/
theorem arrBufs_eq (c : Dev nD) (W : (b : Ref sig .tc) → Buf (Elt F) ((c.tc : Thread nD τ).loc b)) :
    (Pipeline.arrBufs spec0 c W : sProp 𝕄)
      = iprop((((c : Thread nD τ).loc main_arg0) ↦{fullShare} W main_arg0) ∗ (((c : Thread nD τ).loc main_arg2) ↦{fullShare} W main_arg2)
          ∗ (((c : Thread nD τ).loc main_arg3) ↦{fullShare} W main_arg3) ∗ (((c : Thread nD τ).loc main_v0) ↦{fullShare} W main_v0)) := by
  unfold Pipeline.arrBufs
  exact bigSep_eq_bigSepL_of_eq [main_arg0, main_arg2, main_arg3, main_v0] (by decide) (by decide) _

theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 4).set_eq_univ, (arr_whole0 5).set_eq_univ]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl, show (dats m 0 c).share 5 = fullShare from rfl]
  iintro ⟨H0, H2, H3, H5⟩
  ihave H0' := (pointsTo_share (PosShare.mem_left_op_right fullShare)).1 $$ H0
  icases H0' with ⟨H0l, H0r⟩
  ihave H2' := (pointsTo_share (PosShare.mem_left_op_right fullShare)).1 $$ H2
  icases H2' with ⟨H2l, H2r⟩
  isplitl [H0l]; · iexact H0l
  isplitl [H0r]; · iexact H0r
  isplitl [H2l]; · iexact H2l
  isplitl [H2r]; · iexact H2r
  isplitl [H3]; · iexact H3
  iexact H5

/-- The buffers the host operations touch: the loss vector and their own four results. -/
abbrev tailL : List (Ref sig .tc) := [main_v0, main_cst, main_v1, main_cst_0, main_v2]
def tailSet : Finset (DevRef τ sig) := (tailL.map (Proc.devRef (τ := τ) .tc)).toFinset

theorem held_tail (c : Dev nD) (W : Valuation τ sig (Elt F)) :
    (StableHlo.held (c.tc : Thread nD τ) tailSet W : sProp 𝕄)
      = iprop((((c : Thread nD τ).loc main_v0) ↦{fullShare} W (Proc.devRef .tc main_v0)) ∗ (((c : Thread nD τ).loc main_cst) ↦{fullShare} W (Proc.devRef .tc main_cst))
          ∗ (((c : Thread nD τ).loc main_v1) ↦{fullShare} W (Proc.devRef .tc main_v1)) ∗ (((c : Thread nD τ).loc main_cst_0) ↦{fullShare} W (Proc.devRef .tc main_cst_0))
          ∗ (((c : Thread nD τ).loc main_v2) ↦{fullShare} W (Proc.devRef .tc main_v2))) := by
  unfold StableHlo.held tailSet
  exact bigSep_eq_bigSepL (tailL.map (Proc.devRef (τ := τ) .tc)) (List.Nodup.map (Proc.devRef_injective _) (by decide)) _

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  have hm : ∀ r ∈ tailL, Proc.devRef (τ := τ) .tc r ∈ tailSet := fun r hr =>
    List.mem_toFinset.mpr (List.mem_map_of_mem hr)
  rcases hop with rfl | rfl | rfl | rfl
  · rw [StableHlo.nullary_bufs]; intro b hb
    simp only [Finset.mem_singleton] at hb; subst hb; exact hm _ (by decide)
  · rw [StableHlo.binary_bufs]; intro b hb
    simp only [Finset.mem_insert, Finset.mem_singleton] at hb
    rcases hb with rfl | rfl | rfl <;> exact hm _ (by decide)
  · rw [StableHlo.nullary_bufs]; intro b hb
    simp only [Finset.mem_singleton] at hb; subst hb; exact hm _ (by decide)
  · rw [StableHlo.binary_bufs]; intro b hb
    simp only [Finset.mem_insert, Finset.mem_singleton] at hb
    rcases hb with rfl | rfl | rfl <;> exact hm _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What the buffers hold when the region is left, one by one. -/
theorem Wx_v0 (c : Dev nD) : Wx m c (Proc.devRef .tc main_v0) = (dats m 0 c).arrAt 5 cfg0.N := Function.update_self ..
theorem Wx_of_ne (c : Dev nD) (b : Ref sig .tc) (hb : b ≠ main_v0) : Wx m c (Proc.devRef .tc b) = V m c b :=
  Function.update_of_ne (StableHlo.devRef_ne_of_ne hb) ..

/-- No host operation writes the loss vector or the unused second argument. -/
theorem Wf_keep (c : Dev nD) (b : Ref sig .tc) (hb : b ∉ [main_cst, main_v1, main_cst_0, main_v2]) :
    Wf m c (Proc.devRef .tc b) = Wx m c (Proc.devRef .tc b) := by
  unfold Wf
  refine StableHlo.after_of_forall_not_mem _ _ fun op hop => ?_
  simp only [hostOps1, List.mem_cons, List.mem_nil_iff, or_false] at hop
  simp only [List.mem_cons, List.mem_nil_iff, or_false, not_or] at hb
  rcases hop with rfl | rfl | rfl | rfl <;>
    simp only [StableHlo.nullary_writes, StableHlo.binary_writes, Finset.mem_singleton] <;>
    exact StableHlo.devRef_ne_of_ne (by tauto)

theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (fun b => Wf m c (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq]
  unfold Dat.arrays
  rw [bigSep_W0, (arr_whole0 5).set_eq_univ, show (dats m 0 c).share 5 = fullShare from rfl]
  rw [Wf_keep m c main_arg1 (by decide), Wx_of_ne m c main_arg1 (by decide)]
  have hx : (StableHlo.held (c.tc : Thread nD τ) tailSet (Wx m c) : sProp 𝕄)
      = iprop((((c : Thread nD τ).loc main_v0) ↦{fullShare} (dats m 0 c).arrAt 5 cfg0.N) ∗ (((c : Thread nD τ).loc main_cst) ↦{fullShare} V m c main_cst)
          ∗ (((c : Thread nD τ).loc main_v1) ↦{fullShare} V m c main_v1) ∗ (((c : Thread nD τ).loc main_cst_0) ↦{fullShare} V m c main_cst_0)
          ∗ (((c : Thread nD τ).loc main_v2) ↦{fullShare} V m c main_v2)) := by
    rw [held_tail, Wx_v0, Wx_of_ne m c main_cst (by decide), Wx_of_ne m c main_v1 (by decide), Wx_of_ne m c main_cst_0 (by decide), Wx_of_ne m c main_v2 (by decide)]
  have hf : (StableHlo.held (c.tc : Thread nD τ) tailSet (Wf m c) : sProp 𝕄)
      = iprop((((c : Thread nD τ).loc main_v0) ↦{fullShare} (dats m 0 c).arrAt 5 cfg0.N) ∗ (((c : Thread nD τ).loc main_cst) ↦{fullShare} Wf m c (Proc.devRef .tc main_cst))
          ∗ (((c : Thread nD τ).loc main_v1) ↦{fullShare} Wf m c (Proc.devRef .tc main_v1)) ∗ (((c : Thread nD τ).loc main_cst_0) ↦{fullShare} Wf m c (Proc.devRef .tc main_cst_0))
          ∗ (((c : Thread nD τ).loc main_v2) ↦{fullShare} Wf m c (Proc.devRef .tc main_v2))) := by
    rw [held_tail, Wf_keep m c main_v0 (by decide), Wx_v0]
  show _ ⊢ wp frame _ Set.univ (Pipeline.chain (([hostOps1] : List (List (HloOp τ sig (Elt F)))).map StableHlo.seq ++ [])) Q'
  iintro ⟨Hk, Hb, ⟨A0, A1, A2, A3, A4, A5⟩, ⟨R1, Rc, Rv1, Rc0, Rv2⟩⟩
  ihave Hh : iprop(boundary (c.tc : Thread nD τ) ∗ (StableHlo.held (c.tc : Thread nD τ) tailSet (Wx m c) : sProp 𝕄)) $$ [Hb A5 Rc Rv1 Rc0 Rv2]
  · rw [hx]
    isplitl [Hb]; · iexact Hb
    isplitl [A5]; · iexact A5
    isplitl [Rc]; · iexact Rc
    isplitl [Rv1]; · iexact Rv1
    isplitl [Rc0]; · iexact Rc0
    iexact Rv2
  iapply (Pipeline.wp_seqs_then (fun q => (cfgs q).toPCfg (Val := Elt F)) defs₀ Variants.none c tailSet [] [hostOps1] (tail_sub) (tail_fresh) (Wx m c)) $$ Hh
  iintro Hh
  rw [Pipeline.chain_nil, wp_pure]
  rw [show StableHlo.after ([hostOps1] : List (List (HloOp τ sig (Elt F)))).flatten (Wx m c) = Wf m c from rfl, hf]
  imodintro
  icases Hh with ⟨-, ⟨A5, Rc, Rv1, Rc0, Rv2⟩⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R1]; · iexact R1
  isplitl [Rc]; · iexact Rc
  isplitl [Rv1]; · iexact Rv1
  isplitl [Rc0]; · iexact Rc0
  iexact Rv2

set_option backward.isDefEq.respectTransparency.types false in
theorem run_main : θ_run defs (onTc (τ := τ) (main (F := F))) (s₀ m ρ) (fun r => ∀ c : Dev nD,
    (∀ w, r.2.mem (((cfg0).spec w).arr.view.loc (c.tc : Thread nD τ)) = (dats m 0 c).arrAt w cfg0.N)
    ∧ ∀ b ∈ Pipeline.restRefsP sig Pipeline.Prefetch.none spec0, r.2.mem ((c.tc : Thread nD τ).loc b) = Wf m c (Proc.devRef .tc b)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wf m c (Proc.devRef .tc b)) s')
      isplitl [HU] <;> iassumption)
    (hQ := fun s h c => ⟨(h c).1, (h c).2.2⟩)

end Cert.Kernel.Hand

end
-- ==== Proof.KB.Final.lean ====
/-
  What the run leaves: the four argument arrays as launched, and in the result buffer the host's mean of the loss vector the
  write-backs assembled.
-/
import proofs.«153545_j16973710754120_1_alg».proof.Proof.KB.Region

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wf_v2 (c : Dev nD) : Wf m c (Proc.devRef .tc main_v2) = meanOf ((dats m 0 c).arrAt 5 cfg0.N) := by
  unfold Wf meanOf
  rw [← Wx_v0 m c]
  after_results

theorem mem_rest_arg1 : main_arg1 ∈ Pipeline.restRefsP sig Pipeline.Prefetch.none spec0 := by decide
theorem mem_rest_v2 : main_v2 ∈ Pipeline.restRefsP sig Pipeline.Prefetch.none spec0 := by decide

/-- The run with the result named and the arguments unchanged. -/
theorem run_value : θ_run defs (onTc (τ := τ) (main (F := F))) ⟨m, fun _ => 0, ρ⟩ (fun r => ∀ c : Dev nD,
      r.2.mem ((c.tc : Thread nD τ).loc main_v2) = meanOf ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 mem_rest_v2).trans (Wf_v2 m c),
     ((h c).1 0).trans (((dats m 0 c).arrAt_in 0 rfl _).trans ((A_eq m c 0).trans rfl)),
     ((h c).2 main_arg1 mem_rest_arg1).trans ((Wf_keep m c main_arg1 (by decide)).trans ((Wx_of_ne m c main_arg1 (by decide)).trans rfl)),
     ((h c).1 2).trans (((dats m 0 c).arrAt_in 2 rfl _).trans ((A_eq m c 2).trans rfl)),
     ((h c).1 4).trans (((dats m 0 c).arrAt_in 4 rfl _).trans ((A_eq m c 4).trans rfl))⟩) (run_main m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.KI.Base.lean ====
/-
  The contrastive-loss kernel visits a 16 × 16 grid of points (i, j), j fastest. Row block i of the features, of the
  labels and of the noise stays staged while j runs; column block j of the features and of the labels is fetched at every
  point. Two 512 × 1 scratch columns are carried from point to point: the first holds exp(cos / T) of each row of block i
  against its noised copy, written when j = 0; the second the running sum over the column blocks seen so far of the masked
  exp(⟨z_r, z_c⟩ / T), reset when j = 0. When j = 15 the output block i receives −log(num / (num + neg)).
  This module fixes what every later module is stated over: the arrays as the region finds them, a window's block at a
  point, the two branch conditions as congruences of the point's number, where the output window rests, and the names of
  the staging and scratch memrefs.
-/
import proofs.«153545_j16973710754120_1_alg».proof.Proof.Gen.KernelIdeal.Launch
import proofs.«153545_j16973710754120_1_alg».proof.Proof.Gen.KernelIdeal.Skeleton
import proofs.«153545_j16973710754120_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Nothing runs on the host before the region: the arrays are the launch contents. -/
abbrev V0 (c : Dev nD) : Valuation τ sig (Elt F) := StableHlo.after (List.flatten []) (fun b => m (c, b))
abbrev V (c : Dev nD) (b : Ref sig .tc) : Buf (Elt F) ((c : Thread nD τ).loc b) := V0 m c (Proc.devRef .tc b)

/-- Window `w`'s block at point `t`: 512 consecutive rows of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches -/

/-- `j = 0`: the numerator is computed and the running sum reset. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- `j = 15`: the loss of row block `i` is written. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows rest -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output rests wherever `j ≠ 15`, and is not written back there. -/
theorem rest5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
theorem live5 : ∀ t : Fin cfg0.N, isLast (grid0.coords t) → cfg0.idle 5 (grid0.coords t) = false := by decide +kernel

/-! ## The memrefs the body is called with -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)
/-- The numerator column and the running-sum column. -/
abbrev numM : Memref sig .tc .vmem S512x1 .f32 := Memref.whole cc0_scratch0
abbrev negM : Memref sig .tc .vmem S512x1 .f32 := Memref.whole cc0_scratch1
abbrev numV : View sig .tc .vmem S512x1 .f32 := numM.view
abbrev negV : View sig .tc .vmem S512x1 .f32 := negM.view
abbrev outV : View sig .tc .vmem S512 .f32 := (Memref.whole cc0_stg5_0 : Memref sig .tc .vmem S512 .f32).view

/-- What the region owns beside its windows: the two scratch columns at some contents and the generator register. -/
theorem PhiA_eq (c : Dev nD) :
    (Pipeline.ΦA spec0 c : sProp 𝕄)
      = iprop(iprop((∃ d, owns (c : Thread nD τ) numM fullShare d) ∗ (∃ d, owns (c : Thread nD τ) negM fullShare d)) ∗ (∃ r, prngReg c r)) := by
  unfold Pipeline.ΦA; rw [scopedRest0_eq]; simp only [numM, negM, owns_whole]; try rfl

end Cert.KernelIdeal.Hand

end
-- ==== Proof.KI.RunFirst.lean ====
/-
  A point with j = 0. The body first writes the numerator column — exp of the cosine of each row of block i with its noised
  copy, over the temperature — and zeroes the running-sum column; then, as at every point, it adds this tile's row sums.
  The output rests.
-/
import proofs.«153545_j16973710754120_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs when `j = 0`: both scratch columns, whatever they held, come back with the pieces the run
    finds written; inputs and the resting output as they were. -/
noncomputable def runFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i)
    (x0 x1 : Vec F S512x512 .f32) (x2 x3 : Vec F S512x1024 .f32) (x4 : Vec F S512x512 .f32) :
    Σ' (LS0 : List (View.Piece (Elt F) S512x1 .f32)), { LS1 : List (View.Piece (Elt F) S512x1 .f32) //
      ∀ (xi5 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun xi5 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Hand

end
-- ==== Proof.KI.RunMid.lean ====
/-
  A point with 0 < j < 15: neither branch runs. The body reads the four label and feature blocks, adds this tile's row
  sums of the masked exponentials to the running-sum column, and touches neither the numerator column nor the output.
-/
import proofs.«153545_j16973710754120_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs, neither branch taken: the inputs, the resting output and the numerator column come back as
    they were; the running-sum column comes back with the pieces the run finds written into it. -/
noncomputable def runMid (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i)
    (x0 x1 : Vec F S512x512 .f32) (x2 x3 : Vec F S512x1024 .f32) (x4 : Vec F S512x512 .f32) (xs0 xs1 : Vec F S512x1 .f32) :
    { LS1 : List (View.Piece (Elt F) S512x1 .f32) //
      ∀ (xi5 : Vec F S512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, fun xi5 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

end Cert.KernelIdeal.Hand

end
-- ==== Proof.KI.RunLast.lean ====
/-
  A point with j = 15. The body adds the last tile's row sums to the running-sum column and then writes the loss of each
  row of block i, −log(num / (num + neg)), into the output block. The numerator column is only read.
-/
import proofs.«153545_j16973710754120_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs when `j = 15`: the output block and the running-sum column come back with the pieces the run
    finds written; inputs and the numerator column as they were. -/
noncomputable def runLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i)
    (x0 x1 : Vec F S512x512 .f32) (x2 x3 : Vec F S512x1024 .f32) (x4 : Vec F S512x512 .f32) (xs0 xs1 : Vec F S512x1 .f32) :
    Σ' (L5 : List (View.Piece (Elt F) S512 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [HS0]
    · iexists _; isplitr; · ipureintro; exact harg8.read_unread _
      iexact HS0
    iexists _; iexact HS1

end Cert.KernelIdeal.Hand

end
-- ==== Proof.KI.Track.lean ====
/-
  What the two scratch columns and the output block hold after each point, by recursion on the point's number n = 16 i + j.
  After a point with j = 0 the numerator column is that point's fresh value and the running sum its first tile's row sums;
  after any other point the numerator is what the point before left and the running sum what it left plus this tile's row
  sums; after a point with j = 15 the output block is the loss computed from the two columns. Elsewhere the output block
  rests, and what is recorded for it there is never consulted. From these the proof data of the region is assembled and
  the body is shown to take the data at a point to the data at the next.
-/
import proofs.«153545_j16973710754120_1_alg».proof.Proof.KI.RunFirst
import proofs.«153545_j16973710754120_1_alg».proof.Proof.KI.RunMid
import proofs.«153545_j16973710754120_1_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from the pieces its run finds -/

def numOfFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) : Vec F S512x1 .f32 :=
  numV.read (Elt F) (numV.writes (Elt F) numV.junk (runFirst c i arg2 harg2 arg3 harg3 arg4 harg4 arg5 harg5 arg6 harg6 arg7 harg7 arg8 harg8 arg9 harg9 hc0 hc1 x0 x1 x2 x3 x4).1)
def negOfFirst (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) : Vec F S512x1 .f32 :=
  negV.read (Elt F) (negV.writes (Elt F) negV.junk (runFirst c i arg2 harg2 arg3 harg3 arg4 harg4 arg5 harg5 arg6 harg6 arg7 harg7 arg8 harg8 arg9 harg9 hc0 hc1 x0 x1 x2 x3 x4).2.1)
/-- Each column is stored whole: the pieces cover it. -/
theorem numOfFirst_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) (y : S512x1.Idx) :
    ∃ pc ∈ (runFirst c i arg2 harg2 arg3 harg3 arg4 harg4 arg5 harg5 arg6 harg6 arg7 harg7 arg8 harg8 arg9 harg9 hc0 hc1 x0 x1 x2 x3 x4).1, y ∈ pc.1.set :=
  View.cover_of_tiledL (runFirst c i arg2 harg2 arg3 harg3 arg4 harg4 arg5 harg5 arg6 harg6 arg7 harg7 arg8 harg8 arg9 harg9 hc0 hc1 x0 x1 x2 x3 x4).1 S512x1.size (by sl_kernel_rfl) y
theorem negOfFirst_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) (y : S512x1.Idx) :
    ∃ pc ∈ (runFirst c i arg2 harg2 arg3 harg3 arg4 harg4 arg5 harg5 arg6 harg6 arg7 harg7 arg8 harg8 arg9 harg9 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 hc0 hc1 x0 x1 x2 x3 x4).2.1 S512x1.size (by sl_kernel_rfl) y

def negOfMid (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i) (x0 x1 : Vec F S512x512 .f32) (x2 x3 : Vec F S512x1024 .f32) (x4 : Vec F S512x512 .f32) (xs0 xs1 : Vec F S512x1 .f32) : Vec F S512x1 .f32 :=
  negV.read (Elt F) (negV.writes (Elt F) negV.junk (runMid c i arg2 harg2 arg3 harg3 arg4 harg4 arg5 harg5 arg6 harg6 arg7 harg7 arg8 harg8 arg9 harg9 hc0 hc1 x0 x1 x2 x3 x4 xs0 xs1).1)
theorem negOfMid_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i) (x0 x1 : Vec F S512x512 .f32) (x2 x3 : Vec F S512x1024 .f32) (x4 : Vec F S512x512 .f32) (xs0 xs1 : Vec F S512x1 .f32) (y : S512x1.Idx) :
    ∃ pc ∈ (runMid c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (runMid c i arg2 harg2 arg3 harg3 arg4 harg4 arg5 harg5 arg6 harg6 arg7 harg7 arg8 harg8 arg9 harg9 hc0 hc1 x0 x1 x2 x3 x4 xs0 xs1).1 S512x1.size (by sl_kernel_rfl) y

def outOfLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) : Vec F S512 .f32 :=
  outV.read (Elt F) (outV.writes (Elt F) outV.junk (runLast c i arg2 harg2 arg3 harg3 arg4 harg4 arg5 harg5 arg6 harg6 arg7 harg7 arg8 harg8 arg9 harg9 hc0 hc1 x0 x1 x2 x3 x4 xs0 xs1).1)
def negOfLast (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) : Vec F S512x1 .f32 :=
  negV.read (Elt F) (negV.writes (Elt F) negV.junk (runLast c i arg2 harg2 arg3 harg3 arg4 harg4 arg5 harg5 arg6 harg6 arg7 harg7 arg8 harg8 arg9 harg9 hc0 hc1 x0 x1 x2 x3 x4 xs0 xs1).2.1)
theorem outOfLast_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) (y : S512.Idx) :
    ∃ pc ∈ (runLast c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (runLast c i arg2 harg2 arg3 harg3 arg4 harg4 arg5 harg5 arg6 harg6 arg7 harg7 arg8 harg8 arg9 harg9 hc0 hc1 x0 x1 x2 x3 x4 xs0 xs1).1 S512.size (by sl_kernel_rfl) y
theorem negOfLast_cover (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) (y : S512x1.Idx) :
    ∃ pc ∈ (runLast c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (runLast c i arg2 harg2 arg3 harg3 arg4 harg4 arg5 harg5 arg6 harg6 arg7 harg7 arg8 harg8 arg9 harg9 hc0 hc1 x0 x1 x2 x3 x4 xs0 xs1).2.1 S512x1.size (by sl_kernel_rfl) y

/-- What is recorded for the output block where it rests: never consulted. -/
def restOut : Vec F S512 .f32 := outV.read (Elt F) (outV.writes (Elt F) outV.junk [])

/-! ## The tracked contents, point by point -/

/-- After point `n`: the output block, the numerator column, the running-sum column. -/
def trk (c : Dev nD) : (n : ℕ) → n < cfg0.N → Vec F S512 .f32 × Vec F S512x1 .f32 × Vec F S512x1 .f32
  | 0, hn =>
    (restOut,
     numOfFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) numM (Memref.isWhole_whole _) negM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩),
     negOfFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) numM (Memref.isWhole_whole _) negM (Memref.isWhole_whole _) ((isFirst_iff ⟨0, hn⟩).mpr (Nat.zero_mod _)) (fun h => (fun h => by (try dsimp only at h); omega) ((isLast_iff ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then
        False.elim (by omega)
      else
        (restOut,
         numOfFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩),
         negOfFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) ((isFirst_iff ⟨n + 1, hn⟩).mpr h0) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (outOfLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (trk c n (Nat.lt_of_succ_lt hn)).2.1 (trk c n (Nat.lt_of_succ_lt hn)).2.2,
         (trk c n (Nat.lt_of_succ_lt hn)).2.1,
         negOfLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) (fun h => h0 ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (trk c n (Nat.lt_of_succ_lt hn)).2.1 (trk c n (Nat.lt_of_succ_lt hn)).2.2)
      else
        (restOut,
         (trk c n (Nat.lt_of_succ_lt hn)).2.1,
         negOfMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) numM (Memref.isWhole_whole _) negM (Memref.isWhole_whole _) (fun h => h0 ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (trk c n (Nat.lt_of_succ_lt hn)).2.1 (trk c n (Nat.lt_of_succ_lt hn)).2.2)

end Cert.KernelIdeal.Hand

end
-- ==== Proof.KI.Data.lean ====
/-
  The proof data of the region. The arrays are the launch contents; the features array and the labels array are each read
  through two windows (row block i and column block j), so each of those windows holds half of its array; after the body
  every input's staging buffer still holds its block, and the output's holds the tracked block. The invariant between points
  is the two scratch columns at their tracked contents.
-/
import proofs.«153545_j16973710754120_1_alg».proof.Proof.KI.Track

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tracked contents at a point of each kind -/

theorem trk_first (c : Dev nD) (t : Fin cfg0.N) (h0 : t.val % 16 = 0) (h1 : ¬t.val % 16 = 15) :
    trk m c t.val t.isLt = (restOut,
      numOfFirst c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) ((isFirst_iff t).mpr h0) (fun h => h1 ((isLast_iff t).mp h)) (iblk m c 0 t) (iblk m c 1 t) (iblk m c 2 t) (iblk m c 3 t) (iblk m c 4 t),
      negOfFirst c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) ((isFirst_iff t).mpr h0) (fun h => h1 ((isLast_iff t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

theorem trk_mid (c : Dev nD) (t : Fin cfg0.N) (h0 : ¬t.val % 16 = 0) (h1 : ¬t.val % 16 = 15) :
    trk m c t.val t.isLt = (restOut,
      (trk m c (t.val - 1) (Nat.lt_of_le_of_lt (Nat.sub_le _ _) t.isLt)).2.1,
      negOfMid c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) (fun h => h1 ((isLast_iff t).mp h)) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem trk_last (c : Dev nD) (t : Fin cfg0.N) (h0 : ¬t.val % 16 = 0) (h1 : t.val % 16 = 15) :
    trk m c t.val t.isLt = (outOfLast c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2,
      (trk m c (t.val - 1) (Nat.lt_of_le_of_lt (Nat.sub_le _ _) t.isLt)).2.1,
      negOfLast c (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the scratch columns hold anything; before point `n + 1` they hold what point `n` left. -/
def PhiS (c : Dev nD) : (n : ℕ) → n ≤ cfg0.N → sProp 𝕄
  | 0, _ => Pipeline.ΦA spec0 c
  | n + 1, hn => iprop(iprop(owns (c : Thread nD τ) numM fullShare ((trk m c n hn).2.1) ∗ owns (c : Thread nD τ) negM fullShare ((trk m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) numM fullShare ((trk m c n hn).2.1) ∗ owns (c : Thread nD τ) negM fullShare ((trk m c n hn).2.2)) ∗ (∃ r, prngReg c r)) := rfl
theorem PhiS_pos (c : Dev nD) (n : ℕ) (h : n ≤ cfg0.N) (hz : n ≠ 0) :
    PhiS m c n h = iprop(iprop(owns (c : Thread nD τ) numM fullShare ((trk m c (n - 1) (by omega)).2.1) ∗ owns (c : Thread nD τ) negM fullShare ((trk m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (trk m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (trk m c t.val t.isLt).1 := by dsimp only [dats]

/-! ## Every input's staging buffer holds its block, fetched at the point or not -/

theorem before_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m 0 c).before 0 t d = iblk m c 0 t := before_of0 m (dats m 0 c) (A_eq m c 0) (after0 m c) t d
theorem before1 (c : Dev nD) (t : Fin cfg0.N) (d) : (dats m 0 c).before 1 t d = iblk m c 1 t := before_of1 m (dats m 0 c) (A_eq m c 1) (after1 m c) t d
theorem before2 (c : Dev nD) (t : Fin cfg0.N) (d) : (dats m 0 c).before 2 t d = iblk m c 2 t := before_of2 m (dats m 0 c) (A_eq m c 2) (after2 m c) t d
theorem before3 (c : Dev nD) (t : Fin cfg0.N) (d) : (dats m 0 c).before 3 t d = iblk m c 3 t := before_of3 m (dats m 0 c) (A_eq m c 3) (after3 m c) t d
theorem before4 (c : Dev nD) (t : Fin cfg0.N) (d) : (dats m 0 c).before 4 t d = iblk m c 4 t := before_of4 m (dats m 0 c) (A_eq m c 4) (after4 m c) t d

end Cert.KernelIdeal.Hand

end
-- ==== Proof.KI.Body.lean ====
/-
  The body at a generic point takes the proof data at the point to the data at the next. Which of the three cases the point
  is in is read off its number modulo 16; the case's run is handed the inputs' blocks, the output's buffer and the two
  scratch columns, and what it hands back is the tracked contents because the stores it found cover each buffer they write.
-/
import proofs.«153545_j16973710754120_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases h0 : t.val % 16 = 0
  · by_cases h1 : t.val % 16 = 15
    · exfalso; omega
    · rw [Dat.leavesExact_idle (dats m 0 c) 5 t (rest5 t (fun h => h1 ((isLast_iff t).mp h))) (noFlush5 t (fun h => h1 ((isLast_iff t).mp h)))]
      rw [trk_first m c t h0 h1]
      unfold numOfFirst negOfFirst; (try dsimp only)
      by_cases hz : t.val = 0
      · rw [PhiS_castSucc m c t, PhiS_zero m c _ _ hz, PhiA_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (numOfFirst_cover c _ _ _ _ _ _ _ _ _ _ _ _ _ _ _ _ _ _ _ _ _ _ _ _)
            · unfold owns; iexists _; isplitr
              swap; · iexact HS1
              ipureintro; exact View.read_writes_of_cover _ _ _ _ _ (negOfFirst_cover c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((runFirst c (grid0.coords t) _ _ _ _ _ _ _ _ _ _ _ _ _ _ _ _ ((isFirst_iff t).mpr h0) (fun h => h1 ((isLast_iff t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (numOfFirst_cover c _ _ _ _ _ _ _ _ _ _ _ _ _ _ _ _ _ _ _ _ _ _ _ _)
            · unfold owns; iexists _; isplitr
              swap; · iexact HS1
              ipureintro; exact View.read_writes_of_cover _ _ _ _ _ (negOfFirst_cover c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · rw [show (dats m 0 c).leavesExact 5 t = owns (c : Thread nD τ) (ms5 t) fullShare ((dats m 0 c).after 5 t) from by
        unfold Dat.leavesExact; rw [live5 t ((isLast_iff t).mpr h1)], after5]
      rw [trk_last m c t h0 h1]
      unfold outOfLast negOfLast; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 Hg]
      · isplitl [HS0 HS1]
        · isplitl [HS0]; · iexact HS0
          · unfold owns; iexists _; isplitr
            swap; · iexact HS1
            ipureintro; exact View.read_writes_of_cover _ _ _ _ _ (negOfLast_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      · unfold owns; iexists _; isplitr
        swap; · iexact H5
        ipureintro; exact View.read_writes_of_cover _ _ _ _ _ (outOfLast_cover c _ _ _ _ _ _ _ _ _ _ _ _ _ _ _ _ _ _ _ _ _ _ _ _ _ _)
    · rw [Dat.leavesExact_idle (dats m 0 c) 5 t (rest5 t (fun h => h1 ((isLast_iff t).mp h))) (noFlush5 t (fun h => h1 ((isLast_iff t).mp h)))]
      rw [trk_mid m c t h0 h1]
      unfold negOfMid; (try dsimp only)
      have hz : t.val ≠ 0 := fun e => h0 (by rw [e])
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ _ _ (fun h => h0 ((isFirst_iff t).mp h)) (fun h => h1 ((isLast_iff t).mp h)) (iblk m c 0 t) (iblk m c 1 t) (iblk m c 2 t) (iblk m c 3 t) (iblk m c 4 t) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1 Hg]
      · isplitl [HS0 HS1]
        · isplitl [HS0]; · iexact HS0
          · unfold owns; iexists _; isplitr
            swap; · iexact HS1
            ipureintro; exact View.read_writes_of_cover _ _ _ _ _ (negOfMid_cover c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives it back, the columns' contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KI.Region.lean ====
/-
  The run of the whole program: the region, then the four host operations that average the loss vector. The features array
  and the labels array are each handed to two windows, so each window holds half of its array; the halves are never written,
  and after the region they still hold the launch contents. The host's sum and division then read only the loss vector.
-/
import proofs.«153545_j16973710754120_1_alg».proof.Proof.KI.Body
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor

/-- @main is the region continued by the four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The mean of a loss vector as the host computes it. -/
def meanOf (L : (⟨S8192, .f32⟩ : BufTy).Contents (Elt F)) : (⟨S_, .f32⟩ : BufTy).Contents (Elt F) :=
  Host.divf (Host.reduceAdd L (constant S_ .f32 0x00000000#32) reducesTo_S8192_S_d0 h_S_) (constant S_ .f32 0x46000000#32)

/-- The buffers when the region is left: the loss vector at what the write-backs made it, everything else as launched. -/
def Wx (c : Dev nD) : Valuation τ sig (Elt F) :=
  Function.update (V0 m c) (Proc.devRef .tc main_v0) ((dats m 0 c).arrAt 5 cfg0.N)
/-- And after the host operations. -/
def Wf (c : Dev nD) : Valuation τ sig (Elt F) := StableHlo.after hostOps1 (Wx m c)

/-- The four distinct arrays, each whole, make the six windows' arrays: the features and the labels are halved between
    their two windows. -/
theorem arrBufs_eq (c : Dev nD) (W : (b : Ref sig .tc) → Buf (Elt F) ((c.tc : Thread nD τ).loc b)) :
    (Pipeline.arrBufs spec0 c W : sProp 𝕄)
      = iprop((((c : Thread nD τ).loc main_arg0) ↦{fullShare} W main_arg0) ∗ (((c : Thread nD τ).loc main_arg2) ↦{fullShare} W main_arg2)
          ∗ (((c : Thread nD τ).loc main_arg3) ↦{fullShare} W main_arg3) ∗ (((c : Thread nD τ).loc main_v0) ↦{fullShare} W main_v0)) := by
  unfold Pipeline.arrBufs
  exact bigSep_eq_bigSepL_of_eq [main_arg0, main_arg2, main_arg3, main_v0] (by decide) (by decide) _

theorem hsplit (c : Dev nD) : (Pipeline.arrBufs spec0 c (V m c) : sProp 𝕄) ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 4).set_eq_univ, (arr_whole0 5).set_eq_univ]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl, show (dats m 0 c).share 5 = fullShare from rfl]
  iintro ⟨H0, H2, H3, H5⟩
  ihave H0' := (pointsTo_share (PosShare.mem_left_op_right fullShare)).1 $$ H0
  icases H0' with ⟨H0l, H0r⟩
  ihave H2' := (pointsTo_share (PosShare.mem_left_op_right fullShare)).1 $$ H2
  icases H2' with ⟨H2l, H2r⟩
  isplitl [H0l]; · iexact H0l
  isplitl [H0r]; · iexact H0r
  isplitl [H2l]; · iexact H2l
  isplitl [H2r]; · iexact H2r
  isplitl [H3]; · iexact H3
  iexact H5

/-- The buffers the host operations touch: the loss vector and their own four results. -/
abbrev tailL : List (Ref sig .tc) := [main_v0, main_cst, main_v1, main_cst_0, main_v2]
def tailSet : Finset (DevRef τ sig) := (tailL.map (Proc.devRef (τ := τ) .tc)).toFinset

theorem held_tail (c : Dev nD) (W : Valuation τ sig (Elt F)) :
    (StableHlo.held (c.tc : Thread nD τ) tailSet W : sProp 𝕄)
      = iprop((((c : Thread nD τ).loc main_v0) ↦{fullShare} W (Proc.devRef .tc main_v0)) ∗ (((c : Thread nD τ).loc main_cst) ↦{fullShare} W (Proc.devRef .tc main_cst))
          ∗ (((c : Thread nD τ).loc main_v1) ↦{fullShare} W (Proc.devRef .tc main_v1)) ∗ (((c : Thread nD τ).loc main_cst_0) ↦{fullShare} W (Proc.devRef .tc main_cst_0))
          ∗ (((c : Thread nD τ).loc main_v2) ↦{fullShare} W (Proc.devRef .tc main_v2))) := by
  unfold StableHlo.held tailSet
  exact bigSep_eq_bigSepL (tailL.map (Proc.devRef (τ := τ) .tc)) (List.Nodup.map (Proc.devRef_injective _) (by decide)) _

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  have hm : ∀ r ∈ tailL, Proc.devRef (τ := τ) .tc r ∈ tailSet := fun r hr =>
    List.mem_toFinset.mpr (List.mem_map_of_mem hr)
  rcases hop with rfl | rfl | rfl | rfl
  · rw [StableHlo.nullary_bufs]; intro b hb
    simp only [Finset.mem_singleton] at hb; subst hb; exact hm _ (by decide)
  · rw [StableHlo.binary_bufs]; intro b hb
    simp only [Finset.mem_insert, Finset.mem_singleton] at hb
    rcases hb with rfl | rfl | rfl <;> exact hm _ (by decide)
  · rw [StableHlo.nullary_bufs]; intro b hb
    simp only [Finset.mem_singleton] at hb; subst hb; exact hm _ (by decide)
  · rw [StableHlo.binary_bufs]; intro b hb
    simp only [Finset.mem_insert, Finset.mem_singleton] at hb
    rcases hb with rfl | rfl | rfl <;> exact hm _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- What the buffers hold when the region is left, one by one. -/
theorem Wx_v0 (c : Dev nD) : Wx m c (Proc.devRef .tc main_v0) = (dats m 0 c).arrAt 5 cfg0.N := Function.update_self ..
theorem Wx_of_ne (c : Dev nD) (b : Ref sig .tc) (hb : b ≠ main_v0) : Wx m c (Proc.devRef .tc b) = V m c b :=
  Function.update_of_ne (StableHlo.devRef_ne_of_ne hb) ..

/-- No host operation writes the loss vector or the unused second argument. -/
theorem Wf_keep (c : Dev nD) (b : Ref sig .tc) (hb : b ∉ [main_cst, main_v1, main_cst_0, main_v2]) :
    Wf m c (Proc.devRef .tc b) = Wx m c (Proc.devRef .tc b) := by
  unfold Wf
  refine StableHlo.after_of_forall_not_mem _ _ fun op hop => ?_
  simp only [hostOps1, List.mem_cons, List.mem_nil_iff, or_false] at hop
  simp only [List.mem_cons, List.mem_nil_iff, or_false, not_or] at hb
  rcases hop with rfl | rfl | rfl | rfl <;>
    simp only [StableHlo.nullary_writes, StableHlo.binary_writes, Finset.mem_singleton] <;>
    exact StableHlo.devRef_ne_of_ne (by tauto)

theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (fun b => Wf m c (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq]
  unfold Dat.arrays
  rw [bigSep_W0, (arr_whole0 5).set_eq_univ, show (dats m 0 c).share 5 = fullShare from rfl]
  rw [Wf_keep m c main_arg1 (by decide), Wx_of_ne m c main_arg1 (by decide)]
  have hx : (StableHlo.held (c.tc : Thread nD τ) tailSet (Wx m c) : sProp 𝕄)
      = iprop((((c : Thread nD τ).loc main_v0) ↦{fullShare} (dats m 0 c).arrAt 5 cfg0.N) ∗ (((c : Thread nD τ).loc main_cst) ↦{fullShare} V m c main_cst)
          ∗ (((c : Thread nD τ).loc main_v1) ↦{fullShare} V m c main_v1) ∗ (((c : Thread nD τ).loc main_cst_0) ↦{fullShare} V m c main_cst_0)
          ∗ (((c : Thread nD τ).loc main_v2) ↦{fullShare} V m c main_v2)) := by
    rw [held_tail, Wx_v0, Wx_of_ne m c main_cst (by decide), Wx_of_ne m c main_v1 (by decide), Wx_of_ne m c main_cst_0 (by decide), Wx_of_ne m c main_v2 (by decide)]
  have hf : (StableHlo.held (c.tc : Thread nD τ) tailSet (Wf m c) : sProp 𝕄)
      = iprop((((c : Thread nD τ).loc main_v0) ↦{fullShare} (dats m 0 c).arrAt 5 cfg0.N) ∗ (((c : Thread nD τ).loc main_cst) ↦{fullShare} Wf m c (Proc.devRef .tc main_cst))
          ∗ (((c : Thread nD τ).loc main_v1) ↦{fullShare} Wf m c (Proc.devRef .tc main_v1)) ∗ (((c : Thread nD τ).loc main_cst_0) ↦{fullShare} Wf m c (Proc.devRef .tc main_cst_0))
          ∗ (((c : Thread nD τ).loc main_v2) ↦{fullShare} Wf m c (Proc.devRef .tc main_v2))) := by
    rw [held_tail, Wf_keep m c main_v0 (by decide), Wx_v0]
  show _ ⊢ wp frame _ Set.univ (Pipeline.chain (([hostOps1] : List (List (HloOp τ sig (Elt F)))).map StableHlo.seq ++ [])) Q'
  iintro ⟨Hk, Hb, ⟨A0, A1, A2, A3, A4, A5⟩, ⟨R1, Rc, Rv1, Rc0, Rv2⟩⟩
  ihave Hh : iprop(boundary (c.tc : Thread nD τ) ∗ (StableHlo.held (c.tc : Thread nD τ) tailSet (Wx m c) : sProp 𝕄)) $$ [Hb A5 Rc Rv1 Rc0 Rv2]
  · rw [hx]
    isplitl [Hb]; · iexact Hb
    isplitl [A5]; · iexact A5
    isplitl [Rc]; · iexact Rc
    isplitl [Rv1]; · iexact Rv1
    isplitl [Rc0]; · iexact Rc0
    iexact Rv2
  iapply (Pipeline.wp_seqs_then (fun q => (cfgs q).toPCfg (Val := Elt F)) defs₀ Variants.none c tailSet [] [hostOps1] (tail_sub) (tail_fresh) (Wx m c)) $$ Hh
  iintro Hh
  rw [Pipeline.chain_nil, wp_pure]
  rw [show StableHlo.after ([hostOps1] : List (List (HloOp τ sig (Elt F)))).flatten (Wx m c) = Wf m c from rfl, hf]
  imodintro
  icases Hh with ⟨-, ⟨A5, Rc, Rv1, Rc0, Rv2⟩⟩
  iapply Hk
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [R1]; · iexact R1
  isplitl [Rc]; · iexact Rc
  isplitl [Rv1]; · iexact Rv1
  isplitl [Rc0]; · iexact Rc0
  iexact Rv2

set_option backward.isDefEq.respectTransparency.types false in
theorem run_main : θ_run defs (onTc (τ := τ) (main (F := F))) (s₀ m ρ) (fun r => ∀ c : Dev nD,
    (∀ w, r.2.mem (((cfg0).spec w).arr.view.loc (c.tc : Thread nD τ)) = (dats m 0 c).arrAt w cfg0.N)
    ∧ ∀ b ∈ Pipeline.restRefsP sig Pipeline.Prefetch.none spec0, r.2.mem ((c.tc : Thread nD τ).loc b) = Wf m c (Proc.devRef .tc b)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wf m c (Proc.devRef .tc b)) s')
      isplitl [HU] <;> iassumption)
    (hQ := fun s h c => ⟨(h c).1, (h c).2.2⟩)

end Cert.KernelIdeal.Hand

end
-- ==== Proof.KI.Final.lean ====
/-
  What the run leaves: the four argument arrays as launched, and in the result buffer the host's mean of the loss vector the
  write-backs assembled.
-/
import proofs.«153545_j16973710754120_1_alg».proof.Proof.KI.Region

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wf_v2 (c : Dev nD) : Wf m c (Proc.devRef .tc main_v2) = meanOf ((dats m 0 c).arrAt 5 cfg0.N) := by
  unfold Wf meanOf
  rw [← Wx_v0 m c]
  after_results

theorem mem_rest_arg1 : main_arg1 ∈ Pipeline.restRefsP sig Pipeline.Prefetch.none spec0 := by decide
theorem mem_rest_v2 : main_v2 ∈ Pipeline.restRefsP sig Pipeline.Prefetch.none spec0 := by decide

/-- The run with the result named and the arguments unchanged. -/
theorem run_value : θ_run defs (onTc (τ := τ) (main (F := F))) ⟨m, fun _ => 0, ρ⟩ (fun r => ∀ c : Dev nD,
      r.2.mem ((c.tc : Thread nD τ).loc main_v2) = meanOf ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 mem_rest_v2).trans (Wf_v2 m c),
     ((h c).1 0).trans (((dats m 0 c).arrAt_in 0 rfl _).trans ((A_eq m c 0).trans rfl)),
     ((h c).2 main_arg1 mem_rest_arg1).trans ((Wf_keep m c main_arg1 (by decide)).trans ((Wx_of_ne m c main_arg1 (by decide)).trans rfl)),
     ((h c).1 2).trans (((dats m 0 c).arrAt_in 2 rfl _).trans ((A_eq m c 2).trans rfl)),
     ((h c).1 4).trans (((dats m 0 c).arrAt_in 4 rfl _).trans ((A_eq m c 4).trans rfl))⟩) (run_main m ρ)

/-- The frame: the program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.Spec.lean ====
/-
  The contrastive loss both programs compute, as one extended real of the argument arrays: features `z` (8192 × 512), noise
  `nz` (8192 × 512) and multi-hot labels `lab` (8192 × 1024). For row r,
    pos r  = cos(z_r, z_r + nz_r) / T, the cosine with both norms clamped below at ε,
    num r  = exp (pos r),
    neg r  = Σ_c [overlap r c = 0 and c ≠ r] · exp (⟨z_r, z_c⟩ / T),   overlap r c = ⟨lab_r, lab_c⟩,
    loss r = −log (num r / (num r + neg r)),
  and the result is the mean of the losses. T, ε and the row count enter as the f32 words the programs carry (0.07, 1e-8, 8192),
  read exactly; every operation is the exact one on the extended reals.
-/
import Idealize.ShloMosaic.PureOps.Ideal
import Mathlib.Algebra.BigOperators.Fin

noncomputable section

namespace Cert.Spec

open Idealize.ShloMosaic

/-- The temperature, the norm clamp and the row count: the programs' f32 words. -/
def Tw : EReal := Ideal.ofBits .f32 0x3D8F5C29#32
def εw : EReal := Ideal.ofBits .f32 0x322BCC77#32
def Nw : EReal := Ideal.ofBits .f32 0x46000000#32

variable (z nz : Fin 8192 → Fin 512 → EReal) (lab : Fin 8192 → Fin 1024 → EReal)

/-- The noised copy of the features. -/
def aug (r : Fin 8192) (k : Fin 512) : EReal := z r k + nz r k

/-- A row's Euclidean norm, clamped below at ε. -/
def normOf (x : Fin 8192 → Fin 512 → EReal) (r : Fin 8192) : EReal :=
  max (Ideal.sqrt (∑ k, x r k * x r k)) εw

/-- The positive pair's similarity over the temperature, and its exponential. -/
def pos (r : Fin 8192) : EReal :=
  Ideal.div (Ideal.div (∑ k, z r k * aug z nz r k) (normOf z r * normOf (aug z nz) r)) Tw
def num (r : Fin 8192) : EReal := Ideal.exp (pos z nz r)

/-- Row r against row c: similarity over the temperature, and the label overlap. -/
def sim (r c : Fin 8192) : EReal := Ideal.div (∑ k, z r k * z c k) Tw
def overlap (r c : Fin 8192) : EReal := ∑ l, lab r l * lab c l

/-- c is a negative for r: no label in common, and not r itself. -/
def isNeg (r c : Fin 8192) : Prop := Ideal.cmp .oeq (overlap lab r c) 0 = 1#1 ∧ r ≠ c
instance (r c : Fin 8192) : Decidable (isNeg lab r c) := by unfold isNeg; infer_instance

def term (r c : Fin 8192) : EReal := if isNeg lab r c then Ideal.exp (sim z r c) else 0
def neg (r : Fin 8192) : EReal := ∑ c, term z lab r c

def loss (r : Fin 8192) : EReal := -(Ideal.log (Ideal.div (num z nz r) (num z nz r + neg z lab r)))

/-- The mean loss. -/
def G : EReal := Ideal.div (∑ r, loss z nz lab r) Nw

end Cert.Spec

end
-- ==== Proof.KI.Mean.lean ====
/-
  The host's mean read on the extended reals: the sum of the 8192 losses, onto a zero initial value, over the row count's word.
-/
import proofs.«153545_j16973710754120_1_alg».proof.Proof.KI.Final
import proofs.«153545_j16973710754120_1_alg».proof.Proof.Spec
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- A rank-1 index is its coordinate. -/
def idxEquiv1 {n : Nat} : (⟨1, ![n]⟩ : Shape).Idx ≃ Fin n where
  toFun j := j 0
  invFun a := ix1 a
  left_inv j := (eq_ix1 j).symm
  right_inv a := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

theorem meanOf_at (L : (⟨S8192, .f32⟩ : BufTy).Contents (Elt Ideal)) (i : S_.Idx) :
    meanOf (F := Ideal) L i = Ideal.div (∑ r : Fin 8192, L (ix1 r)) Cert.Spec.Nw := by
  unfold meanOf Cert.Spec.Nw
  show FloatOps.hostDivf (F := Ideal) (Host.reduceAdd (F := Ideal) L (constant (F := Ideal) S_ .f32 0x00000000#32) reducesTo_S8192_S_d0 h_S_ i) (FloatOps.ofBits (F := Ideal) .f32 0x46000000#32) = _
  simp only [Host.reduceAdd, Ideal.hostReduceAdd_def, Ideal.hostDivf_def, Ideal.ofBits_def]
  rw [Ideal.hostReduceAdd_total reducesTo_S8192_S_d0 (fun b => b.elim0) L _ i]
  show Ideal.div (FloatOps.ofBits (F := Ideal) .f32 0x00000000#32 + ∑ j : S8192.Idx, L j) _ = _
  rw [Ideal.ofBits_def, Ideal.ofBits_zero_f32, zero_add, sum_idx1]

end Cert.KernelIdeal.Hand

end
-- ==== Proof.KI.Blocks.lean ====
/-
  The staged input blocks, read at an index. The grid point numbered t is (i, j) = (t / 16, t % 16). Every window's block
  is 512 consecutive rows of its array and all of its columns, so a block's entry (r, k) is the array's entry
  (512 · b + r, k), b the block's index on the row axis: b = i for the row block of the features, of the labels and of the
  noise, and b = j for the column block of the features and of the labels (the same two arrays, read a second time).
  The index maps are decided once over the 256 points.
-/
import proofs.«153545_j16973710754120_1_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- Point t is (t / 16, t % 16). -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)
theorem coords0_val (t : Fin cfg0.N) : (grid0.coords t 0).val = t.val / 16 := (coords_val t).1
theorem coords1_val (t : Fin cfg0.N) : (grid0.coords t 1).val = t.val % 16 := (coords_val t).2
theorem coords0_lt (t : Fin cfg0.N) : (grid0.coords t 0).val < 16 := (grid0.coords t 0).isLt
theorem coords1_lt (t : Fin cfg0.N) : (grid0.coords t 1).val < 16 := (grid0.coords t 1).isLt

/-- Each window's block index at a point: the row axis follows i (windows 0, 2, 4 and the output) or j (windows 1, 3);
    the column axis has one block. -/
theorem index_facts : ∀ t : Fin cfg0.N,
    (win0_0.index t (0 : Fin 2) = (grid0.coords t 0).val ∧ win0_0.index t (1 : Fin 2) = 0)
    ∧ (win0_1.index t (0 : Fin 2) = (grid0.coords t 1).val ∧ win0_1.index t (1 : Fin 2) = 0)
    ∧ (win0_2.index t (0 : Fin 2) = (grid0.coords t 0).val ∧ win0_2.index t (1 : Fin 2) = 0)
    ∧ (win0_3.index t (0 : Fin 2) = (grid0.coords t 1).val ∧ win0_3.index t (1 : Fin 2) = 0)
    ∧ (win0_4.index t (0 : Fin 2) = (grid0.coords t 0).val ∧ win0_4.index t (1 : Fin 2) = 0)
    ∧ win0_5.index t (0 : Fin 1) = (grid0.coords t 0).val :=
  (by decide +kernel : ∀ t : Fin grid0.N, _)

/-! ## A block's entry is the array's entry at row 512 · (block index) + r

Stated with the array's row as a variable ρ and its value as a hypothesis, so that a caller supplies the row in whichever
form it has it. -/

theorem iblk0_at (c : Dev nD) (t : Fin cfg0.N) (r : Fin 512) (k : Fin 512) (ρ : Fin 8192)
    (hρ : ρ.val = 512 * (grid0.coords t 0).val + r.val) :
    (iblk m c 0 t : Vec F S512x512 .f32) (ix2 r k) = (V m c main_arg0 : S8192x512.Idx → Elt F .f32) (ix2 ρ k) := by
  unfold iblk
  rw [View.read_apply]
  show V m c main_arg0 (((cfg0.win 0).blk t).view.emb (ix2 r k)) = V m c main_arg0 (ix2 ρ k)
  congr 1
  funext a
  apply Fin.ext
  have e0 := (index_facts t).1.1
  have e1 := (index_facts t).1.2
  match a with
  | ⟨0, _⟩ => show win0_0.index t (0 : Fin 2) * 512 + 1 * r.val = ρ.val; rw [e0, hρ]; omega
  | ⟨1, _⟩ => show win0_0.index t (1 : Fin 2) * 512 + 1 * k.val = k.val; rw [e1]; omega

theorem iblk1_at (c : Dev nD) (t : Fin cfg0.N) (r : Fin 512) (k : Fin 512) (ρ : Fin 8192)
    (hρ : ρ.val = 512 * (grid0.coords t 1).val + r.val) :
    (iblk m c 1 t : Vec F S512x512 .f32) (ix2 r k) = (V m c main_arg0 : S8192x512.Idx → Elt F .f32) (ix2 ρ k) := by
  unfold iblk
  rw [View.read_apply]
  show V m c main_arg0 (((cfg0.win 1).blk t).view.emb (ix2 r k)) = V m c main_arg0 (ix2 ρ k)
  congr 1
  funext a
  apply Fin.ext
  have e0 := (index_facts t).2.1.1
  have e1 := (index_facts t).2.1.2
  match a with
  | ⟨0, _⟩ => show win0_1.index t (0 : Fin 2) * 512 + 1 * r.val = ρ.val; rw [e0, hρ]; omega
  | ⟨1, _⟩ => show win0_1.index t (1 : Fin 2) * 512 + 1 * k.val = k.val; rw [e1]; omega

theorem iblk2_at (c : Dev nD) (t : Fin cfg0.N) (r : Fin 512) (k : Fin 1024) (ρ : Fin 8192)
    (hρ : ρ.val = 512 * (grid0.coords t 0).val + r.val) :
    (iblk m c 2 t : Vec F S512x1024 .f32) (ix2 r k) = (V m c main_arg2 : S8192x1024.Idx → Elt F .f32) (ix2 ρ k) := by
  unfold iblk
  rw [View.read_apply]
  show V m c main_arg2 (((cfg0.win 2).blk t).view.emb (ix2 r k)) = V m c main_arg2 (ix2 ρ k)
  congr 1
  funext a
  apply Fin.ext
  have e0 := (index_facts t).2.2.1.1
  have e1 := (index_facts t).2.2.1.2
  match a with
  | ⟨0, _⟩ => show win0_2.index t (0 : Fin 2) * 512 + 1 * r.val = ρ.val; rw [e0, hρ]; omega
  | ⟨1, _⟩ => show win0_2.index t (1 : Fin 2) * 1024 + 1 * k.val = k.val; rw [e1]; omega

theorem iblk3_at (c : Dev nD) (t : Fin cfg0.N) (r : Fin 512) (k : Fin 1024) (ρ : Fin 8192)
    (hρ : ρ.val = 512 * (grid0.coords t 1).val + r.val) :
    (iblk m c 3 t : Vec F S512x1024 .f32) (ix2 r k) = (V m c main_arg2 : S8192x1024.Idx → Elt F .f32) (ix2 ρ k) := by
  unfold iblk
  rw [View.read_apply]
  show V m c main_arg2 (((cfg0.win 3).blk t).view.emb (ix2 r k)) = V m c main_arg2 (ix2 ρ k)
  congr 1
  funext a
  apply Fin.ext
  have e0 := (index_facts t).2.2.2.1.1
  have e1 := (index_facts t).2.2.2.1.2
  match a with
  | ⟨0, _⟩ => show win0_3.index t (0 : Fin 2) * 512 + 1 * r.val = ρ.val; rw [e0, hρ]; omega
  | ⟨1, _⟩ => show win0_3.index t (1 : Fin 2) * 1024 + 1 * k.val = k.val; rw [e1]; omega

theorem iblk4_at (c : Dev nD) (t : Fin cfg0.N) (r : Fin 512) (k : Fin 512) (ρ : Fin 8192)
    (hρ : ρ.val = 512 * (grid0.coords t 0).val + r.val) :
    (iblk m c 4 t : Vec F S512x512 .f32) (ix2 r k) = (V m c main_arg3 : S8192x512.Idx → Elt F .f32) (ix2 ρ k) := by
  unfold iblk
  rw [View.read_apply]
  show V m c main_arg3 (((cfg0.win 4).blk t).view.emb (ix2 r k)) = V m c main_arg3 (ix2 ρ k)
  congr 1
  funext a
  apply Fin.ext
  have e0 := (index_facts t).2.2.2.2.1.1
  have e1 := (index_facts t).2.2.2.2.1.2
  match a with
  | ⟨0, _⟩ => show win0_4.index t (0 : Fin 2) * 512 + 1 * r.val = ρ.val; rw [e0, hρ]; omega
  | ⟨1, _⟩ => show win0_4.index t (1 : Fin 2) * 512 + 1 * k.val = k.val; rw [e1]; omega

/-! ## The same with the row written out -/

/-- Row r of block b, for b < 16, is a row of the array. -/
theorem row_lt {b : Nat} (hb : b < 16) (r : Fin 512) : 512 * b + r.val < 8192 := by have := r.isLt; omega

/-- Window 0: rows of block i of the features. -/
theorem iblk0_apply (c : Dev nD) (t : Fin cfg0.N) (r k : Fin 512) :
    (iblk m c 0 t : Vec F S512x512 .f32) (ix2 r k)
      = (V m c main_arg0 : S8192x512.Idx → Elt F .f32) (ix2 ⟨512 * (grid0.coords t 0).val + r.val, row_lt (coords0_lt t) r⟩ k) :=
  iblk0_at m c t r k _ rfl
/-- Window 1: rows of block j of the same array. -/
theorem iblk1_apply (c : Dev nD) (t : Fin cfg0.N) (q k : Fin 512) :
    (iblk m c 1 t : Vec F S512x512 .f32) (ix2 q k)
      = (V m c main_arg0 : S8192x512.Idx → Elt F .f32) (ix2 ⟨512 * (grid0.coords t 1).val + q.val, row_lt (coords1_lt t) q⟩ k) :=
  iblk1_at m c t q k _ rfl
/-- Window 2: rows of block i of the labels. -/
theorem iblk2_apply (c : Dev nD) (t : Fin cfg0.N) (r : Fin 512) (l : Fin 1024) :
    (iblk m c 2 t : Vec F S512x1024 .f32) (ix2 r l)
      = (V m c main_arg2 : S8192x1024.Idx → Elt F .f32) (ix2 ⟨512 * (grid0.coords t 0).val + r.val, row_lt (coords0_lt t) r⟩ l) :=
  iblk2_at m c t r l _ rfl
/-- Window 3: rows of block j of the labels. -/
theorem iblk3_apply (c : Dev nD) (t : Fin cfg0.N) (q : Fin 512) (l : Fin 1024) :
    (iblk m c 3 t : Vec F S512x1024 .f32) (ix2 q l)
      = (V m c main_arg2 : S8192x1024.Idx → Elt F .f32) (ix2 ⟨512 * (grid0.coords t 1).val + q.val, row_lt (coords1_lt t) q⟩ l) :=
  iblk3_at m c t q l _ rfl
/-- Window 4: rows of block i of the noise. -/
theorem iblk4_apply (c : Dev nD) (t : Fin cfg0.N) (r k : Fin 512) :
    (iblk m c 4 t : Vec F S512x512 .f32) (ix2 r k)
      = (V m c main_arg3 : S8192x512.Idx → Elt F .f32) (ix2 ⟨512 * (grid0.coords t 0).val + r.val, row_lt (coords0_lt t) r⟩ k) :=
  iblk4_at m c t r k _ rfl

end Cert.KernelIdeal.Hand

end
-- ==== Proof.KI.Array.lean ====
/-
  From the output's blocks to the output array. The output block is written back exactly at the points with j = 15, one
  per row block i, and the block written at point 16 i + 15 is rows 512 i … 512 i + 511 of the array. These sixteen blocks
  tile the 8192 rows: row ρ lies in the block of point 16 (ρ / 512) + 15. So if at every such point the tracked output
  block is, row by row, one function L of the array's row, the array ends holding L.
-/
import proofs.«153545_j16973710754120_1_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-- Row r of the block of point t is a row of the array. -/
theorem out_row_lt (t : Fin cfg0.N) (r : Fin 512) : 512 * (t.val / 16) + r.val < 8192 := by
  have h1 : t.val < 256 := lt_of_lt_of_eq t.isLt (N_0 : cfg0.N = 256)
  have h2 := r.isLt
  omega

/-- An index of the array is in point t's block iff its row is among the block's 512. -/
theorem mem_blk5 (t : Fin cfg0.N) (y : S8192.Idx) :
    y ∈ ((cfg0.win 5).blk t).view.set ↔ ∀ a : Fin 1, win0_5.index t a * S512.size a ≤ (y a).val ∧ (y a).val < win0_5.index t a * S512.size a + S512.size a := by
  show y ∈ ((View.whole main_v0).slice (win0_5.rect t)).set ↔ _
  rw [View.set_slice_whole, Rect.mem_set_unit]
  exact Iff.rfl

/-- What a point with j = 15 writes back is its block of L. -/
theorem flushed5_eq (c : Dev nD) (L : Fin 8192 → Elt F .f32)
    (h : ∀ t : Fin cfg0.N, t.val % 16 = 15 → ∀ r : Fin 512, (trk m c t.val t.isLt).1 (ix1 r) = L ⟨512 * (t.val / 16) + r.val, out_row_lt t r⟩)
    (t : Fin cfg0.N) (hf : (cfg0.win 5).flush t = true) :
    (dats m 0 c).flushed 5 t = ((cfg0.win 5).blk t).view.read (Elt F) (fun y : S8192.Idx => L (y 0)) := by
  have h15 : t.val % 16 = 15 := (flush0_5 t).mp hf
  show (cfg0.win 5).cut (grid0.coords t) ((dats m 0 c).after 5 t) = _
  rw [after5]
  funext j
  rw [View.read_apply]
  show (trk m c t.val t.isLt).1 j = L ((((cfg0.win 5).blk t).view.emb j) 0)
  have e : (j : S512.Idx) = ix1 (j 0) := eq_ix1 (n := 512) j
  refine ((congrArg (trk m c t.val t.isLt).1 e).trans (h t h15 (j 0))).trans (congrArg L (Fin.ext ?_))
  show 512 * (t.val / 16) + (j 0).val = win0_5.index t (0 : Fin 1) * 512 + 1 * (j 0).val
  rw [(index_facts t).2.2.2.2.2, coords0_val]
  omega

/-- The output array after the run is L, row by row. -/
theorem arrAt5_eq (c : Dev nD) (L : Fin 8192 → Elt F .f32)
    (h : ∀ t : Fin cfg0.N, t.val % 16 = 15 → ∀ r : Fin 512, (trk m c t.val t.isLt).1 (ix1 r) = L ⟨512 * (t.val / 16) + r.val, out_row_lt t r⟩) :
    (dats m 0 c).arrAt 5 cfg0.N = (fun y : S8192.Idx => L (y 0)) :=
  (dats m 0 c).arrAt_eq_of_cover 5 (fun y : S8192.Idx => L (y 0)) (flushed5_eq m c L h) fun y => by
    have hy : (y 0).val < 8192 := (y 0).isLt
    have hN : cfg0.N = 256 := N_0
    have ht : 16 * ((y 0).val / 512) + 15 < cfg0.N := by rw [hN]; omega
    refine ⟨⟨16 * ((y 0).val / 512) + 15, ht⟩, (flush0_5 _).mpr (by show (16 * ((y 0).val / 512) + 15) % 16 = 15; omega), ?_⟩
    rw [mem_blk5]
    intro a
    have e := (index_facts ⟨16 * ((y 0).val / 512) + 15, ht⟩).2.2.2.2.2
    rw [coords0_val] at e
    match a with
    | ⟨0, _⟩ =>
      show win0_5.index ⟨16 * ((y 0).val / 512) + 15, ht⟩ (0 : Fin 1) * 512 ≤ (y 0).val ∧ (y 0).val < win0_5.index ⟨16 * ((y 0).val / 512) + 15, ht⟩ (0 : Fin 1) * 512 + 512
      rw [e]
      show (16 * ((y 0).val / 512) + 15) / 16 * 512 ≤ (y 0).val ∧ (y 0).val < (16 * ((y 0).val / 512) + 15) / 16 * 512 + 512
      omega

end Cert.KernelIdeal.Hand

end
-- ==== Proof.KI.Pieces.lean ====
/-
  What the body leaves in the two scratch columns and in the output block, case by case, as the body's own arithmetic of
  what it loads. Every store of the body covers its whole buffer and every load reads a whole buffer, so the contents a
  case leaves are the payload of its last store, and a load that follows a store reads that store's payload.
  When j = 0 the numerator column is the fresh exp(cos / T) of the staged row block and its noise, and the running sum is
  zero plus this tile's row sums. At any other point the running sum is what it held plus this tile's row sums. When
  j = 15 the output block is −log(num / (num + neg)) of the numerator column and the running sum just completed.
-/
import proofs.«153545_j16973710754120_1_alg».proof.Proof.KI.Track
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A store or load at offsets (0, 0) of a rank-two buffer, or at (0) of a rank-one buffer, is at the origin. -/
theorem origin2 : (![0, 0] : Fin 2 → Nat) = fun _ => 0 := funext fun a => by fin_cases a <;> rfl
theorem origin1 : (![0] : Fin 1 → Nat) = fun _ => 0 := funext fun a => by fin_cases a <;> rfl

/-- j = 0: the numerator column is the positive pair's exponential, of row block i of the features and of the noise. -/
theorem numOfFirst_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) :
    numOfFirst c i arg2 harg2 arg3 harg3 arg4 harg4 arg5 harg5 arg6 harg6 arg7 harg7 arg8 harg8 arg9 harg9 hc0 hc1 x0 x1 x2 x3 x4 = k0_pay3 x0 x4 := by
  unfold numOfFirst
  rw [View.read_writes_eq_canon _ _ _ (numOfFirst_cover c i arg2 harg2 arg3 harg3 arg4 harg4 arg5 harg5 arg6 harg6 arg7 harg7 arg8 harg8 arg9 harg9 hc0 hc1 x0 x1 x2 x3 x4)]
  unfold runFirst
  dsimp only
  rw [View.canon_unit_zero origin2]
  simp only [View.readAt_eq_ld, harg2.read_unread, harg6.read_unread, View.ld_unit_zero (S := S512x512) origin2]

/-- j = 0: the running sum is reset to zero, read back, and this tile's row sums are added. -/
theorem negOfFirst_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec F S512x512 .f32) (x2 x3 : Vec F S512x1024 .f32) (x4 : Vec F S512x512 .f32) :
    negOfFirst c i arg2 harg2 arg3 harg3 arg4 harg4 arg5 harg5 arg6 harg6 arg7 harg7 arg8 harg8 arg9 harg9 hc0 hc1 x0 x1 x2 x3 x4 = k0_pay1 (k0_pay4 (F := F)) (k0_pay5 i x0 x1 x2 x3) := by
  unfold negOfFirst
  rw [View.read_writes_eq_canon _ _ _ (negOfFirst_cover c i arg2 harg2 arg3 harg3 arg4 harg4 arg5 harg5 arg6 harg6 arg7 harg7 arg8 harg8 arg9 harg9 hc0 hc1 x0 x1 x2 x3 x4)]
  unfold runFirst
  dsimp only
  sl_unfold_words
  rw [View.canon_cons_unit_zero (S := S512x1) origin2, View.readCov_unit_zero (S := S512x1) _ origin2]
  simp only [View.readAt_eq_ld, harg2.read_unread, harg3.read_unread, harg4.read_unread, harg5.read_unread, View.ld_unit_zero (S := S512x512) origin2, View.ld_unit_zero (S := S512x1024) origin2]

/-- 0 < j < 15: this tile's row sums are added to the running sum. -/
theorem negOfMid_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i) (x0 x1 : Vec F S512x512 .f32) (x2 x3 : Vec F S512x1024 .f32) (x4 : Vec F S512x512 .f32) (xs0 xs1 : Vec F S512x1 .f32) :
    negOfMid c i arg2 harg2 arg3 harg3 arg4 harg4 arg5 harg5 arg6 harg6 arg7 harg7 arg8 harg8 arg9 harg9 hc0 hc1 x0 x1 x2 x3 x4 xs0 xs1 = k0_pay1 xs1 (k0_pay5 i x0 x1 x2 x3) := by
  unfold negOfMid
  rw [View.read_writes_eq_canon _ _ _ (negOfMid_cover c i arg2 harg2 arg3 harg3 arg4 harg4 arg5 harg5 arg6 harg6 arg7 harg7 arg8 harg8 arg9 harg9 hc0 hc1 x0 x1 x2 x3 x4 xs0 xs1)]
  unfold runMid
  dsimp only
  rw [View.canon_unit_zero origin2]
  simp only [View.readAt_eq_ld, harg2.read_unread, harg3.read_unread, harg4.read_unread, harg5.read_unread, harg9.read_unread, View.ld_unit_zero (S := S512x512) origin2, View.ld_unit_zero (S := S512x1024) origin2, View.ld_unit_zero (S := S512x1) origin2]

/-- j = 15: the running sum receives its last tile's row sums, -/
theorem negOfLast_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) :
    negOfLast c i arg2 harg2 arg3 harg3 arg4 harg4 arg5 harg5 arg6 harg6 arg7 harg7 arg8 harg8 arg9 harg9 hc0 hc1 x0 x1 x2 x3 x4 xs0 xs1 = k0_pay1 xs1 (k0_pay5 i x0 x1 x2 x3) := by
  unfold negOfLast
  rw [View.read_writes_eq_canon _ _ _ (negOfLast_cover c i arg2 harg2 arg3 harg3 arg4 harg4 arg5 harg5 arg6 harg6 arg7 harg7 arg8 harg8 arg9 harg9 hc0 hc1 x0 x1 x2 x3 x4 xs0 xs1)]
  unfold runLast
  dsimp only
  sl_unfold_words
  dsimp only
  rw [View.canon_unit_zero origin2]
  simp only [View.readAt_eq_ld, harg2.read_unread, harg3.read_unread, harg4.read_unread, harg5.read_unread, harg9.read_unread, View.ld_unit_zero (S := S512x512) origin2, View.ld_unit_zero (S := S512x1024) origin2, View.ld_unit_zero (S := S512x1) origin2]

/-- and the output block is the loss of the numerator column against that completed sum. -/
theorem outOfLast_eq (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec F S512x512 .f32) (x2 x3 : Vec F S512x1024 .f32) (x4 : Vec F S512x512 .f32) (xs0 xs1 : Vec F S512x1 .f32) :
    outOfLast c i arg2 harg2 arg3 harg3 arg4 harg4 arg5 harg5 arg6 harg6 arg7 harg7 arg8 harg8 arg9 harg9 hc0 hc1 x0 x1 x2 x3 x4 xs0 xs1 = k0_pay2 xs0 (k0_pay1 xs1 (k0_pay5 i x0 x1 x2 x3)) xs0 := by
  unfold outOfLast
  rw [View.read_writes_eq_canon _ _ _ (outOfLast_cover c i arg2 harg2 arg3 harg3 arg4 harg4 arg5 harg5 arg6 harg6 arg7 harg7 arg8 harg8 arg9 harg9 hc0 hc1 x0 x1 x2 x3 x4 xs0 xs1)]
  unfold runLast
  dsimp only
  sl_unfold_words
  dsimp only
  rw [View.canon_unit_zero origin1, View.readCov_unit_zero (S := S512x1) _ origin2]
  simp only [View.readAt_eq_ld, harg2.read_unread, harg3.read_unread, harg4.read_unread, harg5.read_unread, harg8.read_unread, harg9.read_unread, View.ld_unit_zero (S := S512x512) origin2, View.ld_unit_zero (S := S512x1024) origin2, View.ld_unit_zero (S := S512x1) origin2]

end Cert.KernelIdeal.Hand

end
-- ==== Proof.KI.Cols.lean ====
/-
  The kernel's arithmetic on one grid point's staged blocks, as plain functions of a block row r < 512: the numerator of row r
  from the feature block and the noise block; one tile's contribution to the running sum, the masked exponentials of row r
  against the 512 columns of the tile, the diagonal excluded by comparing global row and column numbers; and the loss from a
  numerator and a running sum. The payload lemmas identify the printed payloads with these, and the induction over the grid
  assembles them into the specification's `num`, `neg` and `loss`.
-/
import proofs.«153545_j16973710754120_1_alg».proof.Proof.Spec
import proofs.«153545_j16973710754120_1_alg».proof.KernelIdeal
import Idealize.ShloMosaic.Lib.ValueIdx

noncomputable section

namespace Cert.KernelIdeal.Cols

open Idealize.ShloMosaic Idealize.ShloMosaic.ValueIdx Cert.Spec Cert.KernelIdeal

/-- exp of the clamped cosine of row r of `x0` with row r of `x0 + x4`, over the temperature. -/
def numCol (x0 x4 : S512x512.Idx → EReal) (r : Fin 512) : EReal :=
  Ideal.exp (Ideal.div (Ideal.div (∑ k : Fin 512, x0 (ix2 r k) * (x0 (ix2 r k) + x4 (ix2 r k)))
    (max (Ideal.sqrt (∑ k : Fin 512, x0 (ix2 r k) * x0 (ix2 r k))) εw
      * max (Ideal.sqrt (∑ k : Fin 512, (x0 (ix2 r k) + x4 (ix2 r k)) * (x0 (ix2 r k) + x4 (ix2 r k)))) εw)) Tw)

/-- Row r of the tile at grid point `i`: the sum over the tile's 512 columns q of exp(⟨x0_r, x1_q⟩ / T) where the label rows
    `x2_r`, `x3_q` have no label in common and global row `512 i₀ + r` is not global column `512 i₁ + q`. -/
def tileSum (i : grid0.Coords) (x0 x1 : S512x512.Idx → EReal) (x2 x3 : S512x1024.Idx → EReal) (r : Fin 512) : EReal :=
  ∑ q : Fin 512,
    if Ideal.cmp .oeq (∑ l : Fin 1024, x2 (ix2 r l) * x3 (ix2 q l)) 0 = 1#1 ∧ 512 * (i 0).val + r.val ≠ 512 * (i 1).val + q.val
    then Ideal.exp (Ideal.div (∑ k : Fin 512, x0 (ix2 r k) * x1 (ix2 q k)) Tw) else 0

/-- −log (n / (n + g)). -/
def lossOf (n g : EReal) : EReal := -(Ideal.log (Ideal.div n (n + g)))

end Cert.KernelIdeal.Cols

end
-- ==== Proof.KI.PayAt.lean ====
/-
  The kernel's stored values read at one index, over the extended reals. Each payload of the kernel body is a term over
  the vectors loaded before it, and is read here at a block row r < 512 as a plain function of that row. This module has
  the two casts between a 512-vector and a 512 × 1 column read at an index, and the three short payloads: the reset
  value 0 of the running sum, the running sum plus one tile's contribution, and the loss −log(n / (g₁ + g₂)) written as
  0 − log(…). The numerator and the tile's masked sum are read in the two modules that import this one.
-/
import proofs.«153545_j16973710754120_1_alg».proof.Proof.Gen.KernelIdeal.Skeleton
import proofs.«153545_j16973710754120_1_alg».proof.Proof.KI.Cols
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Cert.KernelIdeal.Cols Idealize.ShloMosaic Idealize.ShloMosaic.ValueIdx

/-! ## The two column casts, read at an index -/

/-- A column [a, 1] cast to a vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The three short payloads -/

/-- The reset value of the running sum: the zero word, read anywhere, is 0. -/
theorem pay4_at (y : S512x1.Idx) : k0_pay4 (F := Ideal) y = 0 := by
  unfold k0_pay4
  rw [shapeCast_self]
  exact Ideal.ofBits_zero_f32

/-- The running sum after a tile: the sum before plus the tile's contribution, entry by entry. -/
theorem pay1_at (a : Vec Ideal S512x1 .f32) (b : FVec Ideal S512x1 .f32) (y : S512x1.Idx) :
    k0_pay1 (F := Ideal) a b y = a y + b y := by
  unfold k0_pay1
  rw [shapeCast_self]
  rfl

/-- The stored loss of row r: 0 − log (n / (g₁ + g₂)) is −log (n / (g₁ + g₂)). -/
theorem pay2_at (a b c : Vec Ideal S512x1 .f32) (r : Fin 512) :
    k0_pay2 (F := Ideal) a b c (ix1 r)
      = -(Ideal.log (Ideal.div (c (ix2 r 0)) (a (ix2 r 0) + b (ix2 r 0)))) := by
  unfold k0_pay2
  refine (shapeCast_a1_a_apply _ shapeCasts_S512x1_S512 r).trans ?_
  show Ideal.ofBits .f32 0x00000000#32 - Ideal.log (Ideal.div (c (ix2 r 0)) (a (ix2 r 0) + b (ix2 r 0))) = _
  rw [Ideal.ofBits_zero_f32, zero_sub]

end Cert.KernelIdeal.PayAt

end
-- ==== Proof.KI.PayAt3.lean ====
/-
  The numerator read at a row. The kernel forms, for the feature block x0 and the noise block x4, the three lane sums
  Σ_k x0·(x0 + x4), Σ_k x0·x0 and Σ_k (x0 + x4)·(x0 + x4) of each row, keeps each as a 512 × 1 column, and stores
  exp((Σ x0·(x0+x4) / (max(√Σ x0², ε) · max(√Σ (x0+x4)², ε))) / T). Read at row r this is the specification's numerator
  of that row of the block: a lane sum kept as a column reads, at (r, 0), the sum over the 512 lanes of row r.
-/
import proofs.«153545_j16973710754120_1_alg».proof.Proof.KI.PayAt

noncomputable section

namespace Cert.KernelIdeal.PayAt

open Cert.KernelIdeal Cert.KernelIdeal.Gen Cert.KernelIdeal.Cols Cert.Spec Idealize.ShloMosaic Idealize.ShloMosaic.ValueIdx

/-- The lane sum of a 512 × 512 block kept as a 512 × 1 column, as the kernel body writes it. -/
abbrev rowSumCol (src : FVec Ideal S512x512 .f32) : FVec Ideal S512x1 .f32 :=
  shapeCast S512x1
    (multiReduction (F := Ideal) .add [1] S512 src 0x00000000#32 reduces_S512x512_S512 (.inl rfl) rfl)
    shapeCasts_S512_S512x1

/-- It reads, at (r, u), the sum over the 512 lanes of row r. -/
theorem rowSumCol_at (src : FVec Ideal S512x512 .f32) (r : Fin 512) (u : Fin 1) :
    rowSumCol src (ix2 r u) = ∑ k : Fin 512, src (ix2 r k) := by
  refine (shapeCast_a_a1_apply _ shapeCasts_S512_S512x1 r u).trans ?_
  refine (Ideal.multiReduction_add_single src 0x00000000#32 reduces_S512x512_S512 (.inl rfl) rfl (ix1 r)).trans ?_
  refine Finset.sum_congr rfl fun k _ => congrArg src (funext fun a => Fin.ext ?_)
  match a with
  | ⟨0, _⟩ => rfl
  | ⟨1, _⟩ => rfl

/-- The stored numerator of row r is exp of the clamped cosine of row r of x0 with row r of x0 + x4, over T. -/
theorem pay3_at (x0 x4 : Vec Ideal S512x512 .f32) (r : Fin 512) :
    k0_pay3 (F := Ideal) x0 x4 (ix2 r 0) = numCol x0 x4 r := by
  unfold k0_pay3
  rw [shapeCast_self]
  unfold numCol
  show Ideal.exp (Ideal.div (Ideal.div (rowSumCol (mulf x0 (addf x0 x4)) (ix2 r 0))
      (max (Ideal.sqrt (rowSumCol (mulf x0 x0) (ix2 r 0))) εw
        * max (Ideal.sqrt (rowSumCol (mulf (addf x0 x4) (addf x0 x4)) (ix2 r 0))) εw)) Tw) = _
  rw [rowSumCol_at, rowSumCol_at, rowSumCol_at]
  rfl

end Cert.KernelIdeal.PayAt

end
-- ==== Proof.KI.PayAt5.lean ====
/-
  One tile's contribution to the running sum, read at a row. At grid point (i₀, i₁) the kernel body multiplies the row
  block x0 of the features with the transposed column block x1, and the row block x2 of the labels with the transposed
  column block x3 (both products accumulate into zero, and the narrowing to bf16 is the identity on the extended reals);
  it compares global row and column numbers 512·i₀ + r and 512·i₁ + q as 32-bit words; keeps exp(⟨x0_r, x1_q⟩ / T) where the
  label product is 0 and the numbers differ, 0 elsewhere; and sums over the 512 lanes q. Read at row r this is the
  tile's masked sum of exponentials: each matrix product at (r, q) is the sum over the contracted axis, and the word
  comparison is the comparison of the naturals because 512·16 is far below 2³².
-/
import proofs.«153545_j16973710754120_1_alg».proof.Proof.KI.PayAt3

noncomputable section

namespace Cert.KernelIdeal.PayAt

open Cert.KernelIdeal Cert.KernelIdeal.Gen Cert.KernelIdeal.Cols Cert.Spec Idealize.ShloMosaic Idealize.ShloMosaic.ValueIdx

/-! ## The diagonal test -/

/-- A one-bit word xor-ed with 1 is 1 exactly when the word is not 1. -/
theorem xori_one_eq_one {b : BitVec 1} : IntOp.xori b 1#1 = 1#1 ↔ ¬b = 1#1 := by revert b; decide

/-- The 32-bit word 512·a + r, for a below 16 and r below 512, is that natural number: nothing wraps. -/
theorem rowWord_toNat (a r : Nat) (ha : a < 16) (hr : r < 512) :
    (IntOp.addi (Scalar.muli (BitVec.ofNat 32 a) 512#32) (BitVec.ofNat 32 r)).toNat = 512 * a + r := by
  show (BitVec.ofNat 32 a * 512#32 + BitVec.ofNat 32 r).toNat = _
  simp only [BitVec.toNat_add, BitVec.toNat_mul, BitVec.toNat_ofNat, Nat.reducePow]
  omega

/-- The kernel's mask "not on the diagonal" at grid point i: global row number against global column number, as words. -/
abbrev offDiag (i : grid0.Coords) : IVec S512x512 1 :=
  xori (cmpi .eq
      (addi (broadcast S512x512 (Scalar.muli (BitVec.ofNat 32 (i 0).val) 512#32)) (iota .tc S512x512 32 [0] iota_S512x512_d0_w32))
      (addi (broadcast S512x512 (Scalar.muli (BitVec.ofNat 32 (i 1).val) 512#32)) (iota .tc S512x512 32 [1] iota_S512x512_d1_w32)))
    (constantI S512x512 1 1#1)

/-- At (r, q) it is set exactly when 512·i₀ + r and 512·i₁ + q differ as naturals. -/
theorem offDiag_at (i : grid0.Coords) (r q : Fin 512) :
    offDiag i (ix2 r q) = 1#1 ↔ 512 * (i 0).val + r.val ≠ 512 * (i 1).val + q.val := by
  have hi0 : (i 0).val < 16 := (i 0).isLt
  have hi1 : (i 1).val < 16 := (i 1).isLt
  have e0 : iota .tc S512x512 32 [0] iota_S512x512_d0_w32 (ix2 r q) = BitVec.ofNat 32 r.val :=
    iota_single_apply .tc S512x512 32 0 iota_S512x512_d0_w32 (ix2 r q)
  have e1 : iota .tc S512x512 32 [1] iota_S512x512_d1_w32 (ix2 r q) = BitVec.ofNat 32 q.val :=
    iota_single_apply .tc S512x512 32 1 iota_S512x512_d1_w32 (ix2 r q)
  show IntOp.xori (IntOp.cmpi .eq
      (IntOp.addi (Scalar.muli (BitVec.ofNat 32 (i 0).val) 512#32) (iota .tc S512x512 32 [0] iota_S512x512_d0_w32 (ix2 r q)))
      (IntOp.addi (Scalar.muli (BitVec.ofNat 32 (i 1).val) 512#32) (iota .tc S512x512 32 [1] iota_S512x512_d1_w32 (ix2 r q))))
    1#1 = 1#1 ↔ _
  rw [e0, e1, xori_one_eq_one, IntOp.cmpi_eq, ← BitVec.toNat_inj, rowWord_toNat _ _ hi0 r.isLt, rowWord_toNat _ _ hi1 q.isLt]

/-! ## The two matrix products -/

/-- The feature product of the kernel body: the row block times the transposed column block, into zero. -/
abbrev gramF (x0 x1 : FVec Ideal S512x512 .f32) : FVec Ideal S512x512 .f32 :=
  matmul dot_S512x512_S512x512_S512x512_1_0_0_1_n_n none
    (truncf .bf16 x0 bitsLt_bf16_f32)
    (transpose S512x512 [1, 0] (truncf .bf16 x1 bitsLt_bf16_f32) transposes_S512x512_p1_0_S512x512)
    (constant S512x512 .f32 0x00000000#32)

theorem gramF_lhs0 (j : S512x512.Idx) (k : dot_S512x512_S512x512_S512x512_1_0_0_1_n_n.contr.Idx) :
    (dot_S512x512_S512x512_S512x512_1_0_0_1_n_n.lhsIdx j k 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

theorem gramF_rhs1 (j : S512x512.Idx) (k : dot_S512x512_S512x512_S512x512_1_0_0_1_n_n.contr.Idx) :
    (dot_S512x512_S512x512_S512x512_1_0_0_1_n_n.rhsIdx j k 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- At (r, q) it is the inner product of row r of x0 with row q of x1. -/
theorem gramF_at (x0 x1 : FVec Ideal S512x512 .f32) (r q : Fin 512) :
    gramF x0 x1 (ix2 r q) = ∑ k : Fin 512, x0 (ix2 r k) * x1 (ix2 q k) := by
  refine (Ideal.matmul_constant_zero_apply dot_S512x512_S512x512_S512x512_1_0_0_1_n_n none _ _ (ix2 r q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r q)
      ((contrEquiv1 dot_S512x512_S512x512_S512x512_1_0_0_1_n_n 512 rfl rfl).symm k) = ix2 r k :=
    funext fun a => Fin.ext (by
      match a with
      | ⟨0, _⟩ => exact gramF_lhs0 _ _
      | ⟨1, _⟩ => exact (dot_S512x512_S512x512_S512x512_1_0_0_1_n_n.lhsIdx_val_of_single rfl _ _).trans hk)
  have er : dot_S512x512_S512x512_S512x512_1_0_0_1_n_n.rhsIdx (ix2 r q)
      ((contrEquiv1 dot_S512x512_S512x512_S512x512_1_0_0_1_n_n 512 rfl rfl).symm k) = ix2 k q :=
    funext fun a => Fin.ext (by
      match a with
      | ⟨0, _⟩ => exact (dot_S512x512_S512x512_S512x512_1_0_0_1_n_n.rhsIdx_val_of_single rfl _ _).trans hk
      | ⟨1, _⟩ => exact gramF_rhs1 _ _)
  rw [el, er, transpose_ix2_apply]
  rfl

/-- The label product of the kernel body: the row block times the transposed column block, into zero. -/
abbrev gramL (x2 x3 : FVec Ideal S512x1024 .f32) : FVec Ideal S512x512 .f32 :=
  matmul dot_S512x1024_S1024x512_S512x512_1_0_0_1_n_n none
    (truncf .bf16 x2 bitsLt_bf16_f32)
    (transpose S1024x512 [1, 0] (truncf .bf16 x3 bitsLt_bf16_f32) transposes_S512x1024_p1_0_S1024x512)
    (constant S512x512 .f32 0x00000000#32)

theorem gramL_lhs0 (j : S512x512.Idx) (k : dot_S512x1024_S1024x512_S512x512_1_0_0_1_n_n.contr.Idx) :
    (dot_S512x1024_S1024x512_S512x512_1_0_0_1_n_n.lhsIdx j k 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

theorem gramL_rhs1 (j : S512x512.Idx) (k : dot_S512x1024_S1024x512_S512x512_1_0_0_1_n_n.contr.Idx) :
    (dot_S512x1024_S1024x512_S512x512_1_0_0_1_n_n.rhsIdx j k 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- At (r, q) it is the inner product of row r of x2 with row q of x3. -/
theorem gramL_at (x2 x3 : FVec Ideal S512x1024 .f32) (r q : Fin 512) :
    gramL x2 x3 (ix2 r q) = ∑ l : Fin 1024, x2 (ix2 r l) * x3 (ix2 q l) := by
  refine (Ideal.matmul_constant_zero_apply dot_S512x1024_S1024x512_S512x512_1_0_0_1_n_n none _ _ (ix2 r q)).trans ?_
  rw [← Equiv.sum_comp (contrEquiv1 dot_S512x1024_S1024x512_S512x512_1_0_0_1_n_n 1024 rfl rfl).symm]
  refine Finset.sum_congr rfl fun l _ => ?_
  have hl := contrEquiv1_symm_val dot_S512x1024_S1024x512_S512x512_1_0_0_1_n_n 1024 rfl rfl l
  have el : dot_S512x1024_S1024x512_S512x512_1_0_0_1_n_n.lhsIdx (ix2 r q)
      ((contrEquiv1 dot_S512x1024_S1024x512_S512x512_1_0_0_1_n_n 1024 rfl rfl).symm l) = ix2 r l :=
    funext fun a => Fin.ext (by
      match a with
      | ⟨0, _⟩ => exact gramL_lhs0 _ _
      | ⟨1, _⟩ => exact (dot_S512x1024_S1024x512_S512x512_1_0_0_1_n_n.lhsIdx_val_of_single rfl _ _).trans hl)
  have er : dot_S512x1024_S1024x512_S512x512_1_0_0_1_n_n.rhsIdx (ix2 r q)
      ((contrEquiv1 dot_S512x1024_S1024x512_S512x512_1_0_0_1_n_n 1024 rfl rfl).symm l) = ix2 l q :=
    funext fun a => Fin.ext (by
      match a with
      | ⟨0, _⟩ => exact (dot_S512x1024_S1024x512_S512x512_1_0_0_1_n_n.rhsIdx_val_of_single rfl _ _).trans hl
      | ⟨1, _⟩ => exact gramL_rhs1 _ _)
  rw [el, er, transpose_ix2_apply]
  rfl

/-! ## The tile's masked sum -/

/-- The value the kernel body carries out of a grid point, read at row r: the tile's masked sum of exponentials. -/
theorem pay5_at (i : grid0.Coords) (x0 x1 : Vec Ideal S512x512 .f32) (x2 x3 : Vec Ideal S512x1024 .f32) (r : Fin 512) :
    k0_pay5 (F := Ideal) i x0 x1 x2 x3 (ix2 r 0) = tileSum i x0 x1 x2 x3 r := by
  unfold k0_pay5
  refine (rowSumCol_at _ r 0).trans ?_
  unfold tileSum
  refine Finset.sum_congr rfl fun q _ => ?_
  show Scalar.select
      (IntOp.andi (Ideal.cmp .oeq (gramL x2 x3 (ix2 r q)) (Ideal.ofBits .f32 0x00000000#32)) (offDiag i (ix2 r q)))
      (Ideal.exp (Ideal.div (gramF x0 x1 (ix2 r q)) Tw)) (Ideal.ofBits .f32 0x00000000#32) = _
  rw [gramL_at, gramF_at, Ideal.ofBits_zero_f32]
  exact if_congr (IntOp.andi_eq_one.trans (and_congr Iff.rfl (offDiag_at i r q))) rfl rfl

end Cert.KernelIdeal.PayAt

end
-- ==== Proof.KI.SumBlocks.lean ====
/-
  Two regroupings of finite sums in an additive commutative monoid (no finiteness of the values is needed, so they apply to
  the extended reals). A sum over a · b indices is the sum over a blocks of the sums over the b indices of each block, index
  b · j + q being entry q of block j. And the sum of the first k + 1 blocks, written as a sum over all blocks that keeps
  block j when j ≤ k: it starts at block 0, grows by one block at a time, and is the whole sum once k reaches the last block.
-/
import Mathlib.Algebra.BigOperators.Fin
import Mathlib.Data.Fintype.BigOperators
import Mathlib.Logic.Equiv.Fin.Basic

namespace Cert.KernelIdeal.Hand

/-- Entry q of block j lies below a · b. -/
theorem blk_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum over a · b indices, block by block. -/
theorem sum_blocks_gen {M : Type*} [AddCommMonoid M] (a b : ℕ) (f : Fin (a * b) → M) :
    ∑ c, f c = ∑ j : Fin a, ∑ q : Fin b, f ⟨b * j.val + q.val, blk_lt j q⟩ := by
  have h := Fintype.sum_equiv finProdFinEquiv
    (fun p : Fin a × Fin b => f ⟨b * p.1.val + p.2.val, blk_lt p.1 p.2⟩) f
    (by
      rintro ⟨j, q⟩
      apply congrArg f
      apply Fin.ext
      simp only [finProdFinEquiv_apply_val]
      exact Nat.add_comm _ _)
  rw [← h, Fintype.sum_prod_type]

/-- 8192 indices as 16 blocks of 512. -/
theorem sum_blocks {M : Type*} [AddCommMonoid M] (f : Fin 8192 → M) :
    ∑ c, f c = ∑ j : Fin 16, ∑ q : Fin 512, f ⟨512 * j.val + q.val, by omega⟩ :=
  sum_blocks_gen 16 512 f

/-- The sum of blocks 0, …, k of g. -/
def upTo {M : Type*} [AddCommMonoid M] {a : ℕ} (g : Fin a → M) (k : ℕ) : M :=
  ∑ j : Fin a, if j.val ≤ k then g j else 0

theorem upTo_zero {M : Type*} [AddCommMonoid M] {a : ℕ} (g : Fin (a + 1) → M) : upTo g 0 = g 0 := by
  unfold upTo
  rw [Finset.sum_eq_single (0 : Fin (a + 1))]
  · simp
  · intro j _ hj
    have : ¬ j.val ≤ 0 := fun h => hj (Fin.ext (Nat.le_zero.mp h))
    simp [this]
  · intro h; exact absurd (Finset.mem_univ _) h

theorem upTo_succ {M : Type*} [AddCommMonoid M] {a : ℕ} (g : Fin a → M) (k : ℕ) (hk : k + 1 < a) :
    upTo g (k + 1) = upTo g k + g ⟨k + 1, hk⟩ := by
  unfold upTo
  have hsplit : ∀ j : Fin a, (if j.val ≤ k + 1 then g j else 0)
      = (if j.val ≤ k then g j else 0) + (if j = ⟨k + 1, hk⟩ then g j else 0) := by
    intro j
    by_cases h1 : j.val ≤ k
    · have h2 : j.val ≤ k + 1 := Nat.le_succ_of_le h1
      have h3 : j ≠ ⟨k + 1, hk⟩ := fun h => by rw [h] at h1; exact absurd h1 (Nat.not_succ_le_self k)
      simp [h1, h2, h3]
    · by_cases h3 : j = ⟨k + 1, hk⟩
      · subst h3; simp [Nat.not_succ_le_self]
      · have h2 : ¬ j.val ≤ k + 1 := fun h => h3 (Fin.ext (by
          have : j.val = k + 1 := Nat.le_antisymm h (Nat.lt_of_not_le h1)
          exact this))
        simp [h1, h2, h3]
  rw [Finset.sum_congr rfl (fun j _ => hsplit j), Finset.sum_add_distrib, Finset.sum_ite_eq' Finset.univ ⟨k + 1, hk⟩ g]
  simp

theorem upTo_full {M : Type*} [AddCommMonoid M] {a : ℕ} (g : Fin a → M) (k : ℕ) (hk : a ≤ k + 1) :
    upTo g k = ∑ j, g j := by
  unfold upTo
  apply Finset.sum_congr rfl
  intro j _
  have : j.val ≤ k := Nat.le_of_lt_succ (Nat.lt_of_lt_of_le j.isLt hk)
  simp [this]

end Cert.KernelIdeal.Hand
-- ==== Proof.KI.Closed.lean ====
/-
  What the two scratch columns and the output block hold after each of the 256 grid points, in the specification's terms.
  Point t is row block i = t / 16 against column block j = t mod 16. Write ρ = 512 i + r for block row r as a row of the
  arrays. After point t the numerator column holds num ρ at entry r; the running-sum column holds the sum, over column
  blocks 0, …, j, of the terms of row ρ against the 512 columns of each block; and after a point with j = 15 the running
  sum is the whole negative sum of row ρ and the output block holds loss ρ at entry r.
  The proof is an induction on t. A point with j = 0 writes a fresh numerator from the row block of the features and of the
  noise, and starts the running sum at zero plus its tile. Any other point keeps the numerator of the point before — the
  same row block, since t / 16 does not change while t mod 16 ≠ 0 — and adds its tile. A tile's row sum is the
  specification's terms against that column block because each staged block is 512 consecutive rows of its array, and the
  kernel's diagonal test on the global row and column numbers is inequality of the two rows. The sixteen blocks of 512
  columns regroup to the sum over all 8192 columns.
-/
import proofs.«153545_j16973710754120_1_alg».proof.Proof.KI.Array
import proofs.«153545_j16973710754120_1_alg».proof.Proof.KI.Pieces
import proofs.«153545_j16973710754120_1_alg».proof.Proof.KI.PayAt5
import proofs.«153545_j16973710754120_1_alg».proof.Proof.KI.SumBlocks

set_option maxRecDepth 16384

noncomputable section

namespace Cert.KernelIdeal.Hand

open Cert.KernelIdeal Cert.KernelIdeal.Gen Cert.KernelIdeal.Cols
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The kernel's per-point columns on blocks of the arrays -/

section Blocks

variable (Z NZ : Fin 8192 → Fin 512 → EReal) (LAB : Fin 8192 → Fin 1024 → EReal)

/-- Row ρ against the 512 columns of column block j. -/
def rowTerms (ρ : Fin 8192) (j : Fin 16) : EReal :=
  ∑ q : Fin 512, Cert.Spec.term Z LAB ρ ⟨512 * j.val + q.val, row_lt j.isLt q⟩

/-- On row block a of the features and of the noise, the numerator column is the specification's numerator of the row. -/
theorem numCol_blocks (a : ℕ) (ha : a < 16) (x0 x4 : S512x512.Idx → EReal)
    (hx0 : ∀ (r k : Fin 512), x0 (ix2 r k) = Z ⟨512 * a + r.val, row_lt ha r⟩ k)
    (hx4 : ∀ (r k : Fin 512), x4 (ix2 r k) = NZ ⟨512 * a + r.val, row_lt ha r⟩ k) (r : Fin 512) :
    numCol x0 x4 r = Cert.Spec.num Z NZ ⟨512 * a + r.val, row_lt ha r⟩ := by
  unfold numCol Cert.Spec.num Cert.Spec.pos Cert.Spec.normOf Cert.Spec.aug
  simp only [hx0, hx4]

/-- On row block a and column block b of the features and of the labels, a tile's row sum is the specification's terms of the
    row against the columns of block b: the diagonal test on global numbers is inequality of the two rows. -/
theorem tileSum_blocks (i : grid0.Coords) (a : ℕ) (b : Fin 16) (ha : a < 16) (hia : (i 0).val = a) (hib : (i 1).val = b.val)
    (x0 x1 : S512x512.Idx → EReal) (x2 x3 : S512x1024.Idx → EReal)
    (hx0 : ∀ (r k : Fin 512), x0 (ix2 r k) = Z ⟨512 * a + r.val, row_lt ha r⟩ k)
    (hx1 : ∀ (q k : Fin 512), x1 (ix2 q k) = Z ⟨512 * b.val + q.val, row_lt b.isLt q⟩ k)
    (hx2 : ∀ (r : Fin 512) (l : Fin 1024), x2 (ix2 r l) = LAB ⟨512 * a + r.val, row_lt ha r⟩ l)
    (hx3 : ∀ (q : Fin 512) (l : Fin 1024), x3 (ix2 q l) = LAB ⟨512 * b.val + q.val, row_lt b.isLt q⟩ l) (r : Fin 512) :
    tileSum i x0 x1 x2 x3 r = rowTerms Z LAB ⟨512 * a + r.val, row_lt ha r⟩ b := by
  unfold tileSum rowTerms Cert.Spec.term
  refine Finset.sum_congr rfl (fun q _ => ?_)
  refine if_congr ?_ ?_ rfl
  · unfold Cert.Spec.isNeg Cert.Spec.overlap
    simp only [hx2, hx3, hia, hib, ne_eq, Fin.mk.injEq]
  · unfold Cert.Spec.sim
    simp only [hx0, hx1]

end Blocks

/-! ## The components of a triple that is known -/

theorem fst_of_eq {α β γ : Type} {p : α × β × γ} {o : α} {a : β} {b : γ} (h : p = (o, a, b)) : p.1 = o := by subst h; rfl
theorem snd_fst_of_eq {α β γ : Type} {p : α × β × γ} {o : α} {a : β} {b : γ} (h : p = (o, a, b)) : p.2.1 = a := by subst h; rfl
theorem snd_snd_of_eq {α β γ : Type} {p : α × β × γ} {o : α} {a : β} {b : γ} (h : p = (o, a, b)) : p.2.2 = b := by subst h; rfl

/-! ## The arrays, and what is used of the three kinds of point and of the block reads -/

variable (m : (ℓ : Loc nD τ sig) → Buf (Elt Ideal) ℓ) (c : Dev nD)

/-- The features, the noise and the labels as the region finds them. -/
def Zf : Fin 8192 → Fin 512 → EReal := fun r k => V m c main_arg0 (ix2 r k)
def NZf : Fin 8192 → Fin 512 → EReal := fun r k => V m c main_arg3 (ix2 r k)
def LABf : Fin 8192 → Fin 1024 → EReal := fun r l => V m c main_arg2 (ix2 r l)

/-- What each kind of point leaves in the columns and in the output block, entry by entry, from the blocks it reads and the
    columns it finds: a first point the fresh numerator and the tile's row sums, any later point the running sum it found plus
    the tile's row sums, a last point also the loss of the numerator it found and the new running sum. -/
structure PointFacts (c : Dev nD) : Prop where
  numFirst : ∀ (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec Ideal S512x512 .f32) (x2 x3 : Vec Ideal S512x1024 .f32) (x4 : Vec Ideal S512x512 .f32) (r : Fin 512),
    numOfFirst (F := Ideal) c i arg2 harg2 arg3 harg3 arg4 harg4 arg5 harg5 arg6 harg6 arg7 harg7 arg8 harg8 arg9 harg9 hc0 hc1 x0 x1 x2 x3 x4 (ix2 r 0) = numCol x0 x4 r
  negFirst : ∀ (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : isFirst i) (hc1 : ¬isLast i) (x0 x1 : Vec Ideal S512x512 .f32) (x2 x3 : Vec Ideal S512x1024 .f32) (x4 : Vec Ideal S512x512 .f32) (r : Fin 512),
    negOfFirst (F := Ideal) c i arg2 harg2 arg3 harg3 arg4 harg4 arg5 harg5 arg6 harg6 arg7 harg7 arg8 harg8 arg9 harg9 hc0 hc1 x0 x1 x2 x3 x4 (ix2 r 0) = tileSum i x0 x1 x2 x3 r
  negMid : ∀ (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : ¬isLast i) (x0 x1 : Vec Ideal S512x512 .f32) (x2 x3 : Vec Ideal S512x1024 .f32) (x4 : Vec Ideal S512x512 .f32) (xs0 xs1 : Vec Ideal S512x1 .f32) (r : Fin 512),
    negOfMid (F := Ideal) c i arg2 harg2 arg3 harg3 arg4 harg4 arg5 harg5 arg6 harg6 arg7 harg7 arg8 harg8 arg9 harg9 hc0 hc1 x0 x1 x2 x3 x4 xs0 xs1 (ix2 r 0) = xs1 (ix2 r 0) + tileSum i x0 x1 x2 x3 r
  negLast : ∀ (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec Ideal S512x512 .f32) (x2 x3 : Vec Ideal S512x1024 .f32) (x4 : Vec Ideal S512x512 .f32) (xs0 xs1 : Vec Ideal S512x1 .f32) (r : Fin 512),
    negOfLast (F := Ideal) c i arg2 harg2 arg3 harg3 arg4 harg4 arg5 harg5 arg6 harg6 arg7 harg7 arg8 harg8 arg9 harg9 hc0 hc1 x0 x1 x2 x3 x4 xs0 xs1 (ix2 r 0) = xs1 (ix2 r 0) + tileSum i x0 x1 x2 x3 r
  outLast : ∀ (i : grid0.Coords) (arg2 : Memref sig .tc .vmem S512x512 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512 .f32) (harg7 : arg7.IsWhole) (arg8 : Memref sig .tc .vmem S512x1 .f32) (harg8 : arg8.IsWhole) (arg9 : Memref sig .tc .vmem S512x1 .f32) (harg9 : arg9.IsWhole) (hc0 : ¬isFirst i) (hc1 : isLast i) (x0 x1 : Vec Ideal S512x512 .f32) (x2 x3 : Vec Ideal S512x1024 .f32) (x4 : Vec Ideal S512x512 .f32) (xs0 xs1 : Vec Ideal S512x1 .f32) (r : Fin 512),
    outOfLast (F := Ideal) c i arg2 harg2 arg3 harg3 arg4 harg4 arg5 harg5 arg6 harg6 arg7 harg7 arg8 harg8 arg9 harg9 hc0 hc1 x0 x1 x2 x3 x4 xs0 xs1 (ix1 r)
      = lossOf (xs0 (ix2 r 0)) (xs1 (ix2 r 0) + tileSum i x0 x1 x2 x3 r)

/-- Each case's stored pieces read back as its payloads, and each payload read at a row. -/
theorem pointFacts (c : Dev nD) : PointFacts c where
  numFirst i arg2 harg2 arg3 harg3 arg4 harg4 arg5 harg5 arg6 harg6 arg7 harg7 arg8 harg8 arg9 harg9 hc0 hc1 x0 x1 x2 x3 x4 r :=
    (congrFun (numOfFirst_eq c i arg2 harg2 arg3 harg3 arg4 harg4 arg5 harg5 arg6 harg6 arg7 harg7 arg8 harg8 arg9 harg9 hc0 hc1 x0 x1 x2 x3 x4) (ix2 r 0)).trans (PayAt.pay3_at x0 x4 r)
  negFirst i arg2 harg2 arg3 harg3 arg4 harg4 arg5 harg5 arg6 harg6 arg7 harg7 arg8 harg8 arg9 harg9 hc0 hc1 x0 x1 x2 x3 x4 r :=
    (congrFun (negOfFirst_eq c i arg2 harg2 arg3 harg3 arg4 harg4 arg5 harg5 arg6 harg6 arg7 harg7 arg8 harg8 arg9 harg9 hc0 hc1 x0 x1 x2 x3 x4) (ix2 r 0)).trans
      ((PayAt.pay1_at _ _ (ix2 r 0)).trans
        ((congrArg₂ (· + ·) (PayAt.pay4_at (ix2 r 0)) (PayAt.pay5_at i x0 x1 x2 x3 r)).trans (zero_add _)))
  negMid i arg2 harg2 arg3 harg3 arg4 harg4 arg5 harg5 arg6 harg6 arg7 harg7 arg8 harg8 arg9 harg9 hc0 hc1 x0 x1 x2 x3 x4 xs0 xs1 r :=
    (congrFun (negOfMid_eq c i arg2 harg2 arg3 harg3 arg4 harg4 arg5 harg5 arg6 harg6 arg7 harg7 arg8 harg8 arg9 harg9 hc0 hc1 x0 x1 x2 x3 x4 xs0 xs1) (ix2 r 0)).trans
      ((PayAt.pay1_at xs1 _ (ix2 r 0)).trans (congrArg (xs1 (ix2 r 0) + ·) (PayAt.pay5_at i x0 x1 x2 x3 r)))
  negLast i arg2 harg2 arg3 harg3 arg4 harg4 arg5 harg5 arg6 harg6 arg7 harg7 arg8 harg8 arg9 harg9 hc0 hc1 x0 x1 x2 x3 x4 xs0 xs1 r :=
    (congrFun (negOfLast_eq c i arg2 harg2 arg3 harg3 arg4 harg4 arg5 harg5 arg6 harg6 arg7 harg7 arg8 harg8 arg9 harg9 hc0 hc1 x0 x1 x2 x3 x4 xs0 xs1) (ix2 r 0)).trans
      ((PayAt.pay1_at xs1 _ (ix2 r 0)).trans (congrArg (xs1 (ix2 r 0) + ·) (PayAt.pay5_at i x0 x1 x2 x3 r)))
  outLast i arg2 harg2 arg3 harg3 arg4 harg4 arg5 harg5 arg6 harg6 arg7 harg7 arg8 harg8 arg9 harg9 hc0 hc1 x0 x1 x2 x3 x4 xs0 xs1 r :=
    (congrFun (outOfLast_eq c i arg2 harg2 arg3 harg3 arg4 harg4 arg5 harg5 arg6 harg6 arg7 harg7 arg8 harg8 arg9 harg9 hc0 hc1 x0 x1 x2 x3 x4 xs0 xs1) (ix1 r)).trans
      ((PayAt.pay2_at xs0 _ xs0 r).trans
        (congrArg (fun g => -(Ideal.log (Ideal.div (xs0 (ix2 r 0)) (xs0 (ix2 r 0) + g))))
          ((PayAt.pay1_at xs1 _ (ix2 r 0)).trans (congrArg (xs1 (ix2 r 0) + ·) (PayAt.pay5_at i x0 x1 x2 x3 r)))))

theorem rowBlk_lt (t : Fin cfg0.N) : t.val / 16 < 16 := by
  have h := out_row_lt t (0 : Fin 512)
  have h0 : (0 : Fin 512).val = 0 := rfl
  omega
/-- The column block of point t. -/
def colBlk (t : Fin cfg0.N) : Fin 16 := ⟨t.val % 16, Nat.mod_lt _ (by decide)⟩
/-- Block row r at point t, as a row of the arrays. -/
def rowOf (t : Fin cfg0.N) (r : Fin 512) : Fin 8192 := ⟨512 * (t.val / 16) + r.val, out_row_lt t r⟩

/-- Each window's block at point t is 512 consecutive rows of its array: row block t / 16 for the row-side windows and the
    noise, row block t mod 16 for the column-side windows. -/
structure BlockFacts : Prop where
  b0 : ∀ (t : Fin cfg0.N) (r k : Fin 512), (iblk m c 0 t : Vec Ideal S512x512 .f32) (ix2 r k) = Zf m c ⟨512 * (t.val / 16) + r.val, row_lt (rowBlk_lt t) r⟩ k
  b1 : ∀ (t : Fin cfg0.N) (q k : Fin 512), (iblk m c 1 t : Vec Ideal S512x512 .f32) (ix2 q k) = Zf m c ⟨512 * (colBlk t).val + q.val, row_lt (colBlk t).isLt q⟩ k
  b2 : ∀ (t : Fin cfg0.N) (r : Fin 512) (l : Fin 1024), (iblk m c 2 t : Vec Ideal S512x1024 .f32) (ix2 r l) = LABf m c ⟨512 * (t.val / 16) + r.val, row_lt (rowBlk_lt t) r⟩ l
  b3 : ∀ (t : Fin cfg0.N) (q : Fin 512) (l : Fin 1024), (iblk m c 3 t : Vec Ideal S512x1024 .f32) (ix2 q l) = LABf m c ⟨512 * (colBlk t).val + q.val, row_lt (colBlk t).isLt q⟩ l
  b4 : ∀ (t : Fin cfg0.N) (r k : Fin 512), (iblk m c 4 t : Vec Ideal S512x512 .f32) (ix2 r k) = NZf m c ⟨512 * (t.val / 16) + r.val, row_lt (rowBlk_lt t) r⟩ k

theorem blockFacts : BlockFacts m c where
  b0 t r k := iblk0_at m c t r k ⟨512 * (t.val / 16) + r.val, row_lt (rowBlk_lt t) r⟩ (congrArg (512 * · + r.val) (coords0_val t).symm)
  b1 t q k := iblk1_at m c t q k ⟨512 * (colBlk t).val + q.val, row_lt (colBlk t).isLt q⟩ (congrArg (512 * · + q.val) (coords1_val t).symm)
  b2 t r l := iblk2_at m c t r l ⟨512 * (t.val / 16) + r.val, row_lt (rowBlk_lt t) r⟩ (congrArg (512 * · + r.val) (coords0_val t).symm)
  b3 t q l := iblk3_at m c t q l ⟨512 * (colBlk t).val + q.val, row_lt (colBlk t).isLt q⟩ (congrArg (512 * · + q.val) (coords1_val t).symm)
  b4 t r k := iblk4_at m c t r k ⟨512 * (t.val / 16) + r.val, row_lt (rowBlk_lt t) r⟩ (congrArg (512 * · + r.val) (coords0_val t).symm)

/-! ## The induction over the points -/

/-- After point n, block row r: the numerator column holds the numerator of row ρ, and the running sum the terms of row ρ
    against column blocks 0, …, b. -/
def ColsAt (n : ℕ) (hn : n < cfg0.N) (r : Fin 512) (ρ : Fin 8192) (b : ℕ) : Prop :=
  (trk m c n hn).2.1 (ix2 r 0) = Cert.Spec.num (Zf m c) (NZf m c) ρ ∧
  (trk m c n hn).2.2 (ix2 r 0) = upTo (rowTerms (Zf m c) (LABf m c) ρ) b

theorem ColsAt_congr {n n' : ℕ} (h : n = n') (hn : n < cfg0.N) (hn' : n' < cfg0.N) (r : Fin 512) (ρ : Fin 8192) (b : ℕ) :
    ColsAt m c n hn r ρ b → ColsAt m c n' hn' r ρ b := by
  subst h; exact id

/-- The fresh numerator at point t. -/
theorem num_at (B : BlockFacts m c) (t : Fin cfg0.N) (r : Fin 512) :
    numCol (iblk m c 0 t) (iblk m c 4 t) r = Cert.Spec.num (Zf m c) (NZf m c) (rowOf t r) :=
  numCol_blocks (Zf m c) (NZf m c) (t.val / 16) (rowBlk_lt t) (iblk m c 0 t) (iblk m c 4 t) (B.b0 t) (B.b4 t) r

/-- The tile of point t. -/
theorem tile_at (B : BlockFacts m c) (t : Fin cfg0.N) (r : Fin 512) :
    tileSum (grid0.coords t) (iblk m c 0 t) (iblk m c 1 t) (iblk m c 2 t) (iblk m c 3 t) r
      = rowTerms (Zf m c) (LABf m c) (rowOf t r) (colBlk t) :=
  tileSum_blocks (Zf m c) (LABf m c) (grid0.coords t) (t.val / 16) (colBlk t) (rowBlk_lt t) (coords0_val t) (coords1_val t)
    (iblk m c 0 t) (iblk m c 1 t) (iblk m c 2 t) (iblk m c 3 t) (B.b0 t) (B.b1 t) (B.b2 t) (B.b3 t) r

/-- A point with j = 0 starts the row block: fresh numerator, running sum the first tile. -/
theorem cols_first (H : PointFacts c) (B : BlockFacts m c) (t : Fin cfg0.N) (h0 : t.val % 16 = 0) (r : Fin 512) :
    ColsAt m c t.val t.isLt r (rowOf t r) 0 := by
  have h1 : ¬ t.val % 16 = 15 := by omega
  have e := trk_first m c t h0 h1
  have hc : colBlk t = (0 : Fin 16) := Fin.ext h0
  have tile := (tile_at m c B t r).trans (congrArg (rowTerms (Zf m c) (LABf m c) (rowOf t r)) hc)
  exact ⟨(congrFun (snd_fst_of_eq e) (ix2 r 0)).trans
      ((H.numFirst (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) ((isFirst_iff t).mpr h0) (fun h => h1 ((isLast_iff t).mp h)) (iblk m c 0 t) (iblk m c 1 t) (iblk m c 2 t) (iblk m c 3 t) (iblk m c 4 t) r).trans (num_at m c B t r)),
    (congrFun (snd_snd_of_eq e) (ix2 r 0)).trans
      ((H.negFirst (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) ((isFirst_iff t).mpr h0) (fun h => h1 ((isLast_iff t).mp h)) (iblk m c 0 t) (iblk m c 1 t) (iblk m c 2 t) (iblk m c 3 t) (iblk m c 4 t) r).trans (tile.trans (upTo_zero _).symm))⟩

/-- A point with j = k + 1 keeps the numerator and adds its tile to the running sum. -/
theorem cols_step (H : PointFacts c) (B : BlockFacts m c) (t : Fin cfg0.N) (k : ℕ) (hk : t.val % 16 = k + 1) (r : Fin 512)
    (ih : ColsAt m c (t.val - 1) (Nat.lt_of_le_of_lt (Nat.sub_le _ _) t.isLt) r (rowOf t r) k) :
    ColsAt m c t.val t.isLt r (rowOf t r) (k + 1) := by
  obtain ⟨ihn, ihg⟩ := ih
  have h0 : ¬ t.val % 16 = 0 := by omega
  have hk16 : k + 1 < 16 := by have := Nat.mod_lt t.val (by decide : 0 < 16); omega
  have hc : colBlk t = ⟨k + 1, hk16⟩ := Fin.ext hk
  have tile := (tile_at m c B t r).trans (congrArg (rowTerms (Zf m c) (LABf m c) (rowOf t r)) hc)
  by_cases h1 : t.val % 16 = 15
  · have e := trk_last m c t h0 h1
    exact ⟨(congrFun (snd_fst_of_eq e) (ix2 r 0)).trans ihn,
      (congrFun (snd_snd_of_eq e) (ix2 r 0)).trans
        ((H.negLast (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2 r).trans
          ((congrArg₂ (· + ·) ihg tile).trans (upTo_succ _ k hk16).symm))⟩
  · have e := trk_mid m c t h0 h1
    exact ⟨(congrFun (snd_fst_of_eq e) (ix2 r 0)).trans ihn,
      (congrFun (snd_snd_of_eq e) (ix2 r 0)).trans
        ((H.negMid (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) (fun h => h1 ((isLast_iff t).mp h)) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2 r).trans
          ((congrArg₂ (· + ·) ihg tile).trans (upTo_succ _ k hk16).symm))⟩

/-- After every point the two columns hold the specification's numerator and partial negative sum of their rows. -/
theorem cols_closed (H : PointFacts c) (B : BlockFacts m c) :
    ∀ (n : ℕ) (hn : n < cfg0.N) (r : Fin 512), ColsAt m c n hn r (rowOf ⟨n, hn⟩ r) (n % 16) := by
  intro n
  induction n with
  | zero =>
    intro hn r
    exact cols_first m c H B ⟨0, hn⟩ (Nat.zero_mod 16) r
  | succ n ih =>
    intro hn r
    by_cases h0 : (n + 1) % 16 = 0
    · rw [h0]
      exact cols_first m c H B ⟨n + 1, hn⟩ h0 r
    · have hk : (n + 1) % 16 = n % 16 + 1 := by omega
      have hρ : rowOf ⟨n, Nat.lt_of_succ_lt hn⟩ r = rowOf ⟨n + 1, hn⟩ r := by
        apply Fin.ext
        show 512 * (n / 16) + r.val = 512 * ((n + 1) / 16) + r.val
        omega
      have ih' := ih (Nat.lt_of_succ_lt hn) r
      rw [hρ] at ih'
      rw [hk]
      exact cols_step m c H B ⟨n + 1, hn⟩ (n % 16) hk r
        (ColsAt_congr m c (Nat.add_sub_cancel (n := n) (m := 1)).symm _ _ r _ _ ih')

/-! ## The closed forms -/

/-- The numerator column after point t. -/
theorem num_closed (t : Fin cfg0.N) (r : Fin 512) :
    (trk m c t.val t.isLt).2.1 (ix2 r 0) = Cert.Spec.num (Zf m c) (NZf m c) ⟨512 * (t.val / 16) + r.val, out_row_lt t r⟩ :=
  (cols_closed m c (pointFacts c) (blockFacts m c) t.val t.isLt r).1

/-- The running sum after point t: the row's terms against column blocks 0, …, t mod 16. -/
theorem neg_closed (t : Fin cfg0.N) (r : Fin 512) :
    (trk m c t.val t.isLt).2.2 (ix2 r 0)
      = upTo (rowTerms (Zf m c) (LABf m c) ⟨512 * (t.val / 16) + r.val, out_row_lt t r⟩) (t.val % 16) :=
  (cols_closed m c (pointFacts c) (blockFacts m c) t.val t.isLt r).2

/-- The same written out. -/
theorem neg_closed' (t : Fin cfg0.N) (r : Fin 512) :
    (trk m c t.val t.isLt).2.2 (ix2 r 0)
      = ∑ j : Fin 16, if j.val ≤ t.val % 16 then
          ∑ q : Fin 512, Cert.Spec.term (Zf m c) (LABf m c) ⟨512 * (t.val / 16) + r.val, out_row_lt t r⟩
            ⟨512 * j.val + q.val, row_lt j.isLt q⟩ else 0 :=
  neg_closed m c t r

/-- All sixteen column blocks of a row's terms are the row's negative sum. -/
theorem rowTerms_sum (Z : Fin 8192 → Fin 512 → EReal) (LAB : Fin 8192 → Fin 1024 → EReal) (ρ : Fin 8192) :
    ∑ j : Fin 16, rowTerms Z LAB ρ j = Cert.Spec.neg Z LAB ρ :=
  (sum_blocks (fun κ => Cert.Spec.term Z LAB ρ κ)).symm

/-- After a point with j = 15 the running sum is the row's whole negative sum … -/
theorem neg_last (t : Fin cfg0.N) (h15 : t.val % 16 = 15) (r : Fin 512) :
    (trk m c t.val t.isLt).2.2 (ix2 r 0)
      = Cert.Spec.neg (Zf m c) (LABf m c) ⟨512 * (t.val / 16) + r.val, out_row_lt t r⟩ := by
  refine (neg_closed m c t r).trans ?_
  rw [h15, upTo_full _ 15 (by decide)]
  exact rowTerms_sum _ _ _

/-- … and the output block receives the row's loss. -/
theorem out_closed (t : Fin cfg0.N) (h1 : t.val % 16 = 15) (r : Fin 512) :
    (trk m c t.val t.isLt).1 (ix1 r)
      = Cert.Spec.loss (Zf m c) (NZf m c) (LABf m c) ⟨512 * (t.val / 16) + r.val, out_row_lt t r⟩ := by
  have h0 : ¬ t.val % 16 = 0 := by omega
  have e := trk_last m c t h0 h1
  have e2 := (congrFun (snd_snd_of_eq e) (ix2 r 0)).trans
    ((pointFacts c).negLast (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2 r)
  have hn := (congrFun (snd_fst_of_eq e) (ix2 r 0)).symm.trans (num_closed m c t r)
  have hg := e2.symm.trans (neg_last m c t h1 r)
  refine (congrFun (fst_of_eq e) (ix1 r)).trans ?_
  refine ((pointFacts c).outLast (grid0.coords t) (ms0 t) (hs0 t) (ms1 t) (hs1 t) (ms2 t) (hs2 t) (ms3 t) (hs3 t) (ms4 t) (hs4 t) (ms5 t) (hs5 t) numM (Memref.isWhole_whole _) negM (Memref.isWhole_whole _) (fun h => h0 ((isFirst_iff t).mp h)) ((isLast_iff t).mpr h1) (iblk m c 0 t) (iblk m c 1 t) (iblk m c 2 t) (iblk m c 3 t) (iblk m c 4 t) (trk m c (t.val - 1) (Nat.lt_of_le_of_lt (Nat.sub_le _ _) t.isLt)).2.1 (trk m c (t.val - 1) (Nat.lt_of_le_of_lt (Nat.sub_le _ _) t.isLt)).2.2 r).trans ?_
  exact congrArg₂ lossOf hn hg

end Cert.KernelIdeal.Hand

end
-- ==== Proof.KI.Value.lean ====
/-
  The kernel's result on the extended reals is the specification: the write-backs assemble the loss vector row block by row
  block, each block's losses being the specification's by the closed forms of the tracked columns, and the host then takes
  their mean.
-/
import proofs.«153545_j16973710754120_1_alg».proof.Proof.KI.Mean
import proofs.«153545_j16973710754120_1_alg».proof.Proof.KI.Closed
import proofs.«153545_j16973710754120_1_alg».proof.Proof.KI.Array

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem kernel_value (m : (ℓ : Loc nD τ sig) → Buf (Elt Ideal) ℓ) (c : Dev nD) :
    meanOf (F := Ideal) ((dats m 0 c).arrAt 5 cfg0.N) = fun _ => Cert.Spec.G (Zf m c) (NZf m c) (LABf m c) := by
  funext i
  rw [meanOf_at, arrAt5_eq m c (fun ρ => Cert.Spec.loss (Zf m c) (NZf m c) (LABf m c) ρ) (fun t h r => out_closed m c t h r)]
  rfl

end Cert.KernelIdeal.Hand

end
-- ==== Proof.Ref.Row.lean ====
/-
  The reference program's per-row values, read at row r, are the specification's: the noised copy, the two clamped
  norms, the positive pair's similarity over the temperature and its exponential.
-/
import proofs.«153545_j16973710754120_1_alg».proof.Proof.Spec
import proofs.«153545_j16973710754120_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 x3 : (⟨S8192x512, .f32⟩ : BufTy).Contents (Elt Ideal))

/-- An 8192 × 512 array as a function of a row and a column. -/
abbrev Z (x : (⟨S8192x512, .f32⟩ : BufTy).Contents (Elt Ideal)) : Fin 8192 → Fin 512 → EReal := fun r k => x (ix2 r k)

/-! ## The index maps of the three row sums: row r, column k -/

theorem idx_sq (r : Fin 8192) (k : Fin 512) : idx_main_call0_v1 (ix1 r) k = ix2 r k :=
  funext fun a => Fin.ext (by match a with | ⟨0, _⟩ => rfl | ⟨1, _⟩ => rfl)
theorem idx_sq_aug (r : Fin 8192) (k : Fin 512) : idx_main_call1_v1 (ix1 r) k = ix2 r k :=
  funext fun a => Fin.ext (by match a with | ⟨0, _⟩ => rfl | ⟨1, _⟩ => rfl)
theorem idx_dot (r : Fin 8192) (k : Fin 512) : idx_main_v8 (ix1 r) k = ix2 r k :=
  funext fun a => Fin.ext (by match a with | ⟨0, _⟩ => rfl | ⟨1, _⟩ => rfl)

/-- The noised copy at (r, k). -/
theorem aug_at (r : Fin 8192) (k : Fin 512) :
    val_main_v0 (F := Ideal) x0 x3 (ix2 r k) = Cert.Spec.aug (Z x0) (Z x3) r k := rfl

/-- The clamped norm of a feature row. -/
theorem norm_at (r : Fin 8192) :
    val_main_v3 (F := Ideal) x0 (ix1 r) = Cert.Spec.normOf (Z x0) r := by
  rw [val_main_v3_apply, val_main_v1_apply, val_main_call0_v1_apply, val_main_v2_apply, val_main_cst_apply,
    val_main_call0_cst_apply]
  simp only [Ideal.maximumf_def, Ideal.hostUnary_sqrt_def, Ideal.ofBits_def, Ideal.ofBits_zero_f32, zero_add]
  unfold Cert.Spec.normOf Cert.Spec.εw
  refine congrArg (fun s => max (Ideal.sqrt s) _) (Finset.sum_congr rfl fun k _ => ?_)
  rw [idx_sq]
  rfl

/-- The clamped norm of a noised row. -/
theorem norm_aug_at (r : Fin 8192) :
    val_main_v6 (F := Ideal) x0 x3 (ix1 r) = Cert.Spec.normOf (Cert.Spec.aug (Z x0) (Z x3)) r := by
  rw [val_main_v6_apply, val_main_v4_apply, val_main_call1_v1_apply, val_main_v5_apply, val_main_cst_0_apply,
    val_main_call1_cst_apply]
  simp only [Ideal.maximumf_def, Ideal.hostUnary_sqrt_def, Ideal.ofBits_def, Ideal.ofBits_zero_f32, zero_add]
  unfold Cert.Spec.normOf Cert.Spec.εw
  refine congrArg (fun s => max (Ideal.sqrt s) _) (Finset.sum_congr rfl fun k _ => ?_)
  rw [idx_sq_aug]
  rfl

/-- The inner product of a row with its noised copy. -/
theorem dot_at (r : Fin 8192) :
    val_main_v8 (F := Ideal) x0 x3 (ix1 r) = ∑ k, Z x0 r k * Cert.Spec.aug (Z x0) (Z x3) r k := by
  rw [val_main_v8_apply, val_main_cst_1_apply]
  simp only [Ideal.ofBits_def, Ideal.ofBits_zero_f32, zero_add]
  refine Finset.sum_congr rfl fun k _ => ?_
  rw [idx_dot]
  rfl

/-- The positive pair's similarity over the temperature. -/
theorem pos_at (r : Fin 8192) :
    val_main_v12 (F := Ideal) x0 x3 (ix1 r) = Cert.Spec.pos (Z x0) (Z x3) r := by
  rw [val_main_v12_apply, val_main_v10_apply, val_main_v9_apply, val_main_v11_apply, val_main_cst_2_apply, dot_at, norm_at,
    norm_aug_at]
  simp only [Ideal.hostDivf_def, Ideal.mulf_def, Ideal.ofBits_def]
  rfl

/-- Its exponential. -/
theorem num_at (r : Fin 8192) :
    val_main_v28 (F := Ideal) x0 x3 (ix1 r) = Cert.Spec.num (Z x0) (Z x3) r := by
  rw [val_main_v28_apply, pos_at]
  simp only [Ideal.hostUnary_exp_def]
  rfl

end Cert.ReferenceIdeal.RefValue

end
-- ==== Proof.Ref.Pair.lean ====
/-
  The reference program's values on a pair of rows (r, c), read at the index (r, c), are the specification's: the
  similarity over the temperature, the label overlap, the test "no label in common and c ≠ r", and the masked exponential.
-/
import proofs.«153545_j16973710754120_1_alg».proof.Proof.Ref.Row
import Idealize.ShloMosaic.Lib.Affine

noncomputable section

namespace Cert.ReferenceIdeal.RefValue

open Cert.ReferenceIdeal Cert.ReferenceIdeal.Read Idealize.ShloMosaic Idealize.ShloMosaic.ValueIdx

variable (x0 : (⟨S8192x512, .f32⟩ : BufTy).Contents (Elt Ideal)) (x2 : (⟨S8192x1024, .f32⟩ : BufTy).Contents (Elt Ideal))

/-- The labels as a function of a row and a label. -/
abbrev Lab (x : (⟨S8192x1024, .f32⟩ : BufTy).Contents (Elt Ideal)) : Fin 8192 → Fin 1024 → EReal := fun r l => x (ix2 r l)

/-! ## The index maps of the two products: the left factor sits at (r, k), the transposed right one at (c, k) -/

theorem lidx_sim (r c : Fin 8192) (k : Fin 512) : lidx_main_v14 (ix2 r c) k = ix2 r k :=
  funext fun a => Fin.ext (by match a with | ⟨0, _⟩ => rfl | ⟨1, _⟩ => rfl)
theorem ridx_sim (r c : Fin 8192) (k : Fin 512) : idx_main_v13 (ridx_main_v14 (ix2 r c) k) = ix2 c k :=
  funext fun a => Fin.ext (by match a with | ⟨0, _⟩ => rfl | ⟨1, _⟩ => rfl)
theorem lidx_lab (r c : Fin 8192) (l : Fin 1024) : lidx_main_v18 (ix2 r c) l = ix2 r l :=
  funext fun a => Fin.ext (by match a with | ⟨0, _⟩ => rfl | ⟨1, _⟩ => rfl)
theorem ridx_lab (r c : Fin 8192) (l : Fin 1024) : idx_main_v17 (ridx_main_v18 (ix2 r c) l) = ix2 c l :=
  funext fun a => Fin.ext (by match a with | ⟨0, _⟩ => rfl | ⟨1, _⟩ => rfl)

/-- Row r against row c over the temperature. -/
theorem sim_at (r c : Fin 8192) :
    val_main_v16 (F := Ideal) x0 (ix2 r c) = Cert.Spec.sim (Z x0) r c := by
  rw [val_main_v16_apply, val_main_v14_apply, val_main_v15_apply, val_main_cst_3_apply]
  simp only [Ideal.hostDivf_def, Ideal.ofBits_def]
  unfold Cert.Spec.sim Cert.Spec.Tw
  refine congrArg (Ideal.div · _) (Finset.sum_congr rfl fun k _ => ?_)
  rw [val_main_v13_apply, lidx_sim, ridx_sim]

/-- The number of labels rows r and c share. -/
theorem overlap_at (r c : Fin 8192) :
    val_main_v18 (F := Ideal) x2 (ix2 r c) = Cert.Spec.overlap (Lab x2) r c := by
  rw [val_main_v18_apply]
  unfold Cert.Spec.overlap
  refine Finset.sum_congr rfl fun l _ => ?_
  rw [val_main_v17_apply, lidx_lab, ridx_lab]

/-- The comparison of the overlap with zero. -/
theorem cmp_at (r c : Fin 8192) :
    val_main_v20 (F := Ideal) x2 (ix2 r c) = Ideal.cmp .oeq (Cert.Spec.overlap (Lab x2) r c) 0 := by
  rw [val_main_v20_apply, val_main_v19_apply, val_main_cst_4_apply, overlap_at]
  simp only [Ideal.cmpf_def, Ideal.ofBits_def, Ideal.ofBits_zero_f32]

/-- Two row numbers are equal when their 32-bit words are: below 8192 the words do not wrap. -/
theorem word_eq_iff (r c : Fin 8192) :
    IntOp.addi (BitVec.ofNat 32 r.val) 0#32 = BitVec.ofNat 32 c.val ↔ r = c := by
  unfold IntOp.addi
  rw [BitVec.add_zero]
  refine ⟨fun h => Fin.ext ?_, fun h => by rw [h]⟩
  have h' := congrArg BitVec.toNat h
  simp only [BitVec.toNat_ofNat, Nat.reducePow] at h'
  have hr := r.isLt
  have hc := c.isLt
  omega

/-- The complement of the diagonal: set exactly where r ≠ c. -/
theorem offdiag_at (r c : Fin 8192) :
    val_main_v26 (F := Ideal) (ix2 r c) = 1#1 ↔ r ≠ c := by
  rw [val_main_v26_apply, val_main_v25_apply, val_main_v24_apply, val_main_v21_apply, val_main_v22_apply,
    val_main_v23_apply, val_main_c_apply, IntOp.not_eq_one, IntOp.cmpi_eq]
  exact not_congr (word_eq_iff r c)

/-- The mask: no label in common, and off the diagonal. -/
theorem mask_at (r c : Fin 8192) :
    val_main_v27 (F := Ideal) x2 (ix2 r c) = 1#1 ↔ Cert.Spec.isNeg (Lab x2) r c := by
  rw [val_main_v27_apply, IntOp.andi_eq_one, offdiag_at, cmp_at]
  exact Iff.rfl

/-- The masked exponential. -/
theorem term_at (r c : Fin 8192) :
    val_main_v30 (F := Ideal) x0 x2 (ix2 r c) = Cert.Spec.term (Z x0) (Lab x2) r c := by
  rw [val_main_v30_apply, val_main_v29_apply, sim_at, val_main_call2_v1_apply, val_main_call2_v0_apply,
    val_main_cst_5_apply]
  simp only [Ideal.hostUnary_exp_def, Ideal.ofBits_def, Ideal.ofBits_zero_f32]
  unfold Scalar.select Cert.Spec.term
  exact if_congr (mask_at x2 r c) rfl rfl

end Cert.ReferenceIdeal.RefValue

end
-- ==== Proof.Ref.Value.lean ====
/-
  The reference program's result is the specification: the negatives' sum, the per-row loss, and the mean over the rows.
-/
import proofs.«153545_j16973710754120_1_alg».proof.Proof.Ref.Pair

noncomputable section

namespace Cert.ReferenceIdeal.RefValue

open Cert.ReferenceIdeal Cert.ReferenceIdeal.Read Idealize.ShloMosaic Idealize.ShloMosaic.ValueIdx

variable (x0 x3 : (⟨S8192x512, .f32⟩ : BufTy).Contents (Elt Ideal)) (x2 : (⟨S8192x1024, .f32⟩ : BufTy).Contents (Elt Ideal))

/-- The index map of the sum over the columns: row r, column c. -/
theorem idx_neg (r c : Fin 8192) : idx_main_v31 (ix1 r) c = ix2 r c :=
  funext fun a => Fin.ext (by match a with | ⟨0, _⟩ => rfl | ⟨1, _⟩ => rfl)

/-- The sum of the masked exponentials over the columns. -/
theorem neg_at (r : Fin 8192) :
    val_main_v31 (F := Ideal) x0 x2 (ix1 r) = Cert.Spec.neg (Z x0) (Lab x2) r := by
  rw [val_main_v31_apply, val_main_cst_6_apply]
  simp only [Ideal.ofBits_def, Ideal.ofBits_zero_f32, zero_add]
  unfold Cert.Spec.neg
  refine Finset.sum_congr rfl fun c _ => ?_
  rw [idx_neg, term_at]

/-- The row's loss. -/
theorem loss_at (r : Fin 8192) :
    val_main_v35 (F := Ideal) x0 x2 x3 (ix1 r) = Cert.Spec.loss (Z x0) (Z x3) (Lab x2) r := by
  rw [val_main_v35_apply, val_main_v34_apply, val_main_v33_apply, val_main_v32_apply, num_at, neg_at]
  simp only [Ideal.hostNegf_def, Ideal.negf_def, Ideal.hostUnary_log_def, Ideal.hostDivf_def, Ideal.addf_def]
  rfl

/-- A rank-1 index is its one coordinate. -/
def rowEquiv : S8192.Idx ≃ Fin 8192 where
  toFun i := i 0
  invFun := ix1
  left_inv i := (eq_ix1 i).symm
  right_inv _ := rfl

/-- The reference computes the mean loss. -/
theorem ref_is_G (x0 x3 : (⟨S8192x512, .f32⟩ : BufTy).Contents (Elt Ideal)) (x2 : (⟨S8192x1024, .f32⟩ : BufTy).Contents (Elt Ideal)) :
    Cert.ReferenceIdeal.Read.val_main_v37 (F := Ideal) x0 x2 x3
      = fun _ => Cert.Spec.G (fun r k => x0 (ix2 r k)) (fun r k => x3 (ix2 r k)) (fun r l => x2 (ix2 r l)) := by
  funext i
  rw [val_main_v37_apply, val_main_v36_apply, val_main_cst_7_apply, val_main_cst_8_apply]
  simp only [Ideal.hostDivf_def, Ideal.ofBits_def, Ideal.ofBits_zero_f32, zero_add]
  unfold Cert.Spec.G Cert.Spec.Nw
  refine congrArg (Ideal.div · _) ?_
  exact (Equiv.sum_comp rowEquiv.symm (val_main_v35 (F := Ideal) x0 x2 x3)).symm.trans
    (Finset.sum_congr rfl fun r _ => loss_at x0 x3 x2 r)

end Cert.ReferenceIdeal.RefValue

end
-- ==== Proof.lean ====
/-
  Equivalence of a tiled contrastive-loss kernel and its reference on the extended reals.

  Both programs compute the mean over the 8192 rows r of −log(num r / (num r + neg r)), where num r is the exponential of
  the clamped cosine of z_r with its noised copy over the temperature and neg r sums exp(⟨z_r, z_c⟩ / T) over the columns
  c ≠ r whose label rows share no label with r's. The reference forms the 8192 × 8192 similarity and overlap matrices at
  once; the kernel walks a 16 × 16 grid of 512 × 512 tiles, carrying for the current row block the numerator column and
  the running sum of the negatives, and writes the block's losses after the last tile of the row. On the extended reals a
  change of float format is the identity and addition is commutative and associative, so the running sum over the sixteen
  tiles of a row is the sum over all columns, and the two results are one extended real of the argument arrays.

  The three frames: each program runs to the end from any memory and leaves its arguments as they were. For the kernel, at
  the word level and idealized alike, the features and the labels are each read through two windows of one array, which
  each hold half of it; the scratch columns' contents are tracked from point to point, and the output block rests except
  after the last tile of a row. Nothing was rewritten in idealizing the kernel, so that conjunct is trivial.
-/
import proofs.«153545_j16973710754120_1_alg».proof.Defs
import proofs.«153545_j16973710754120_1_alg».proof.Proof.Gen.Kernel
import proofs.«153545_j16973710754120_1_alg».proof.Proof.Gen.KernelIdeal
import proofs.«153545_j16973710754120_1_alg».proof.Proof.Gen.ReferenceIdeal
import proofs.«153545_j16973710754120_1_alg».proof.Proof.Gen.ReferenceIdeal.Run
import proofs.«153545_j16973710754120_1_alg».proof.Proof.Gen.ReferenceIdeal.Read
import proofs.«153545_j16973710754120_1_alg».proof.Proof.Gen.Pre_finite_inputs
import proofs.«153545_j16973710754120_1_alg».proof.Proof.KB.Final
import proofs.«153545_j16973710754120_1_alg».proof.Proof.KI.Value
import proofs.«153545_j16973710754120_1_alg».proof.Proof.Ref.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification's value of the argument arrays, which agree. -/
theorem algebraic : Cert.algebraic_KernelIdeal_ReferenceIdeal := by
  intro m ρ m' ρ' _ hagree
  refine ⟨fun c => fun _ => Cert.Spec.G (Cert.KernelIdeal.Hand.Zf m c) (Cert.KernelIdeal.Hand.NZf m c) (Cert.KernelIdeal.Hand.LABf m c), ?_, ?_⟩
  · exact (θ_run Cert.KernelIdeal.defs _ _).mono
      (fun _ h c => ⟨(h c).1.trans (Cert.KernelIdeal.Hand.kernel_value m c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v37_eq, Cert.ReferenceIdeal.RefValue.ref_is_G,
      (hagree c).1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
